-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x128 .f32) (main_arg1 : FVec F S16x2048x128 .f32) (main_arg2 : FVec F S16x2048x128 .f32) (main_arg3 : FVec F S16x2048x2048 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S1x2048 : Shape := ⟨2, ![1, 2048]⟩
abbrev S512x128 : Shape := ⟨2, ![512, 128]⟩
abbrev S2048x128 : Shape := ⟨2, ![2048, 128]⟩
abbrev S512x2048 : Shape := ⟨2, ![512, 2048]⟩
abbrev S2048 : Shape := ⟨1, ![2048]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x128, .bf16⟩
  | .hbm, ⟨5, _⟩ => ⟨S16x2048x128, .bf16⟩
  | .hbm, ⟨6, _⟩ => ⟨S16x2048x128, .bf16⟩
  | .hbm, ⟨7, _⟩ => ⟨S16x2048x2048, .bf16⟩
  | .hbm, ⟨8, _⟩ => ⟨S16x2048x2048, .f32⟩
  | .hbm, ⟨9, _⟩ => ⟨S16x2048x128, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S1x512x128, .f32⟩
  | .local _ .vmem, ⟨11, _⟩ => ⟨S1x512x128, .f32⟩
  | .local _ .vmem, ⟨12, _⟩ => ⟨S1x2048, .f32⟩
  | .local _ .vmem, ⟨13, _⟩ => ⟨S1x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S2048 : S512x2048.Reduces [0] S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .bf16 = 32 ∨ (Rect.block (s := S16x2048x128) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .bf16 = 32 ∨ (Rect.block (s := S16x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .bf16 = 32 ∨ (Rect.block (s := S16x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .bf16 = 32 ∨ (Rect.block (s := S16x2048x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S16x2048x128.size a
  hwx0_5 : ∀ i : grid0.Coords, EltTy.bits .f32 = 32 ∨ (Rect.block (s := S16x2048x128) S1x512x128.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x1x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S16x1x2048, .f32⟩
  | .hbm, ⟨15, _⟩ => ⟨S_, .f32⟩
  | .hbm, ⟨16, _⟩ => ⟨S16x1x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S16x1x2048 : S_.BroadcastsInDim S16x1x2048 (![] : Fin 0 → Fin S16x1x2048.rank)
  reducesTo_S16x2048x2048_S16x2048_d2 : S16x2048x2048.ReducesTo [2] S16x2048
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1 : S_.BroadcastsInDim S16x2048x1 (![] : Fin 0 → Fin S16x2048x1.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KernelCases.lean ====
/-
  The three control cases of the kernel body over the grid (batch, phase, query tile), point t = 8·batch + 4·phase + tile.

  The body has three conditionals: phase = 0 ∧ tile = 0 (reset the running column maximum to −∞ and the running column
  sum to 0), phase = 0 (fold this tile's 512 query rows into the running column statistics), phase = 1 (with the column
  statistics final, write this tile's gated weights and their product with the values). Over the 128 points the first
  holds exactly where t ≡ 0 (mod 8), the second where t mod 8 < 4, the third where 4 ≤ t mod 8; so each point is in
  one of three cases: first tile of phase 0, a later tile of phase 0, a tile of phase 1. The two output windows are
  stored only in phase 1: in phase 0 they are idle and their block (pinned at tile 0) is not written back.
-/
import proofs.«113338_j73452530696353_1_alg».proof.Proof.Gen.Kernel.Frame
import proofs.«113338_j73452530696353_1_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the body computes them from the coordinates -/

/-- phase = 0 and tile = 0. -/
abbrev condReset (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- phase = 0. -/
abbrev condFold (i : grid0.Coords) : Prop :=
  Scalar.cmpi .ne (Scalar.extui (Scalar.cmpi .eq (BitVec.ofNat 32 (i 1).val) 0#32)) 0#32 = 1#1
/-- phase = 1. -/
abbrev condEmit (i : grid0.Coords) : Prop := k0_cond3 i = 1#1

theorem hcondReset : ∀ t : Fin cfg0.N, condReset (grid0.coords t) ↔ t.val % 8 = 0 :=
  (by decide +kernel : ∀ t : Fin grid0.N, condReset (grid0.coords t) ↔ t.val % 8 = 0)
theorem hcondFold : ∀ t : Fin cfg0.N, condFold (grid0.coords t) ↔ t.val % 8 < 4 :=
  (by decide +kernel : ∀ t : Fin grid0.N, condFold (grid0.coords t) ↔ t.val % 8 < 4)
theorem hcondEmit : ∀ t : Fin cfg0.N, condEmit (grid0.coords t) ↔ 4 ≤ t.val % 8 :=
  (by decide +kernel : ∀ t : Fin grid0.N, condEmit (grid0.coords t) ↔ 4 ≤ t.val % 8)

/-! ## Where the windows are idle, and where the outputs' blocks are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In phase 0 the two outputs are idle and not written back; in phase 1 they are live. -/
theorem idleAt0_4 : ∀ t : Fin cfg0.N, t.val % 8 < 4 → cfg0.idle 4 (grid0.coords t) = true := by decide +kernel
theorem idleAt0_5 : ∀ t : Fin cfg0.N, t.val % 8 < 4 → cfg0.idle 5 (grid0.coords t) = true := by decide +kernel
theorem noFlush0_4 : ∀ t : Fin cfg0.N, t.val % 8 < 4 → (cfg0.win 4).flush t = false := by decide +kernel
theorem noFlush0_5 : ∀ t : Fin cfg0.N, t.val % 8 < 4 → (cfg0.win 5).flush t = false := by decide +kernel
theorem liveAt0_4 : ∀ t : Fin cfg0.N, 4 ≤ t.val % 8 → cfg0.idle 4 (grid0.coords t) = false := by decide +kernel
theorem liveAt0_5 : ∀ t : Fin cfg0.N, 4 ≤ t.val % 8 → cfg0.idle 5 (grid0.coords t) = false := by decide +kernel

/-! ## The memrefs the body is called with -/

abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .f32 := win0_5.stage (cfg0.slots t 5)
abbrev hs0_5 (t : Fin cfg0.N) : (ms0_5 t).IsWhole := hstage0_5 ((cfg0.slots t 5).cast nbuf0_5)
/-- The running column maximum and the running column sum: whole scratch buffers carried from point to point. -/
abbrev scMax : Memref sig .tc .vmem S1x2048 .f32 := Memref.whole cc0_scratch0
abbrev scSum : Memref sig .tc .vmem S1x2048 .f32 := Memref.whole cc0_scratch1
abbrev VMax : View sig .tc .vmem S1x2048 .f32 := (scMax : Memref sig .tc .vmem S1x2048 .f32).view
abbrev VSum : View sig .tc .vmem S1x2048 .f32 := (scSum : Memref sig .tc .vmem S1x2048 .f32).view
/-- One staging buffer of each output window, through which its contents are stated. -/
abbrev VGate : View sig .tc .vmem S1x512x2048 .f32 := (Memref.whole cc0_stg4_0 : Memref sig .tc .vmem S1x512x2048 .f32).view
abbrev VOut : View sig .tc .vmem S1x512x128 .f32 := (Memref.whole cc0_stg5_0 : Memref sig .tc .vmem S1x512x128 .f32).view

/-- What the region hands the body besides the windows: both scratch buffers at some contents, and the generator register. -/
theorem PhiA0_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

end Cert.Kernel.Gen

end
-- ==== Proof.KernelRunFirst.lean ====
/-
  The body at the first tile of phase 0 (phase = 0, tile = 0): the running column maximum is reset to −∞ and the running
  column sum to 0, then this tile's 512 query rows are folded into them; nothing is stored into the two output blocks.
  The run is by symbolic execution of the body's memory operations; what each scratch buffer ends with is found as the
  list of stores into it, whatever the buffers held before.
-/
import proofs.«113338_j73452530696353_1_alg».proof.Proof.KernelCases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : condReset i) (hc1 : condFold i) (hc2 : ¬condEmit i)
    (x0 : Vec F S1x512x128 .bf16) (x1 : Vec F S1x2048x128 .bf16) (x2 : Vec F S1x2048x128 .bf16) (x3 : Vec F S1x512x2048 .bf16) :
    Σ' (LMax : List (View.Piece (Elt F) S1x2048 .f32)), { LSum : List (View.Piece (Elt F) S1x2048 .f32) //
      ∀ (xi4 : Vec F S1x512x2048 .f32) (xi5 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LSum)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Gen

end
-- ==== Proof.KernelRunFold.lean ====
/-
  The body at a later tile of phase 0 (phase = 0, tile ≠ 0): this tile's 512 query rows are folded into the running column
  maximum and the running column sum the tile before left; nothing is stored into the two output blocks. What each
  scratch buffer ends with is found as the list of stores into it, over the contents found there.
-/
import proofs.«113338_j73452530696353_1_alg».proof.Proof.KernelRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFold (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : ¬condReset i) (hc1 : condFold i) (hc2 : ¬condEmit i)
    (x0 : Vec F S1x512x128 .bf16) (x1 : Vec F S1x2048x128 .bf16) (x2 : Vec F S1x2048x128 .bf16) (x3 : Vec F S1x512x2048 .bf16) (xs0 : Vec F S1x2048 .f32) (xs1 : Vec F S1x2048 .f32) :
    Σ' (LMax : List (View.Piece (Elt F) S1x2048 .f32)), { LSum : List (View.Piece (Elt F) S1x2048 .f32) //
      ∀ (xi4 : Vec F S1x512x2048 .f32) (xi5 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LSum)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Gen

end
-- ==== Proof.KernelRunEmit.lean ====
/-
  The body at a tile of phase 1: with the running column maximum and sum final and only read, this tile's gated weights
  are stored into the first output block and their product with the values into the second. What each output block
  ends with is found as the list of stores into it; the scratch buffers are handed back as found.
-/
import proofs.«113338_j73452530696353_1_alg».proof.Proof.KernelRunFold

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runEmit (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : ¬condReset i) (hc1 : ¬condFold i) (hc2 : condEmit i)
    (x0 : Vec F S1x512x128 .bf16) (x1 : Vec F S1x2048x128 .bf16) (x2 : Vec F S1x2048x128 .bf16) (x3 : Vec F S1x512x2048 .bf16) (xs0 : Vec F S1x2048 .f32) (xs1 : Vec F S1x2048 .f32) :
    Σ' (LGate : List (View.Piece (Elt F) S1x512x2048 .f32)), { LOut : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LGate) ∗ (∃ f, arg8.view.loc (c : Thread nD τ) ↦[arg8.view.set]{fullShare} arg8.view.writes (Elt F) f LOut) ∗ owns (c : Thread nD τ) arg9 fullShare xs0 ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg9.eq_unread hfs0; obtain rfl := harg10.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]
    · iexists _; isplitr; · ipureintro; exact harg9.read_unread _
      iexact HS0
    iexists _; isplitr; · ipureintro; exact harg10.read_unread _
    iexact HS1

end Cert.Kernel.Gen

end
-- ==== Proof.KernelPoints.lean ====
/-
  Point by point. After the body at point t the scratch buffers hold: at the first tile of phase 0 what the reset and the
  first fold leave; at a later tile of phase 0 this tile folded into what the point before left; at a tile of phase 1
  what the point before left (phase 1 only reads them). The output blocks hold, at a tile of phase 1, what that case
  stores — a function of the scratch contents the last tile of phase 0 left; in phase 0 they are idle. With this as
  the proof data, each point's body obligation is that point's case, and the pipeline's run follows: every weakly fair
  execution ends, nothing faults, and the argument arrays are as they were.
-/
import proofs.«113338_j73452530696353_1_alg».proof.Proof.KernelRunEmit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

abbrev firstAt (c : Dev nD) (t : Fin cfg0.N) (h0 : t.val % 8 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) ((hcondReset t).mpr h0) ((hcondFold t).mpr (by omega)) (fun h => by have := (hcondEmit t).mp h; omega) (iblk m c 0 t) (iblk m c 1 t) (iblk m c 2 t) (iblk m c 3 t)
abbrev foldAt (c : Dev nD) (t : Fin cfg0.N) (h0 : ¬t.val % 8 = 0) (h1 : t.val % 8 < 4) (xs0 xs1 : Vec F S1x2048 .f32) :=
  runFold (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) (fun h => h0 ((hcondReset t).mp h)) ((hcondFold t).mpr h1) (fun h => by have := (hcondEmit t).mp h; omega) (iblk m c 0 t) (iblk m c 1 t) (iblk m c 2 t) (iblk m c 3 t) xs0 xs1
abbrev emitAt (c : Dev nD) (t : Fin cfg0.N) (h1 : 4 ≤ t.val % 8) (xs0 xs1 : Vec F S1x2048 .f32) :=
  runEmit (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) (fun h => by have := (hcondReset t).mp h; omega) (fun h => by have := (hcondFold t).mp h; omega) ((hcondEmit t).mpr h1) (iblk m c 0 t) (iblk m c 1 t) (iblk m c 2 t) (iblk m c 3 t) xs0 xs1

/-- The stores of each case cover the buffer they go into (each is one store of the whole buffer). -/
theorem coverFirstMax (c : Dev nD) (t : Fin cfg0.N) (h0 : t.val % 8 = 0) (y : S1x2048.Idx) : ∃ pc ∈ (firstAt m c t h0).1, y ∈ pc.1.set :=
  View.cover_of_tiledL (firstAt m c t h0).1 S1x2048.size (by sl_kernel_rfl) y
theorem coverFirstSum (c : Dev nD) (t : Fin cfg0.N) (h0 : t.val % 8 = 0) (y : S1x2048.Idx) : ∃ pc ∈ (firstAt m c t h0).2.1, y ∈ pc.1.set :=
  View.cover_of_tiledL (firstAt m c t h0).2.1 S1x2048.size (by sl_kernel_rfl) y
theorem coverFoldMax (c : Dev nD) (t : Fin cfg0.N) (h0 : ¬t.val % 8 = 0) (h1 : t.val % 8 < 4) (xs0 xs1 : Vec F S1x2048 .f32) (y : S1x2048.Idx) :
    ∃ pc ∈ (foldAt m c t h0 h1 xs0 xs1).1, y ∈ pc.1.set :=
  View.cover_of_tiledL (foldAt m c t h0 h1 xs0 xs1).1 S1x2048.size (by sl_kernel_rfl) y
theorem coverFoldSum (c : Dev nD) (t : Fin cfg0.N) (h0 : ¬t.val % 8 = 0) (h1 : t.val % 8 < 4) (xs0 xs1 : Vec F S1x2048 .f32) (y : S1x2048.Idx) :
    ∃ pc ∈ (foldAt m c t h0 h1 xs0 xs1).2.1, y ∈ pc.1.set :=
  View.cover_of_tiledL (foldAt m c t h0 h1 xs0 xs1).2.1 S1x2048.size (by sl_kernel_rfl) y
theorem coverEmitGate (c : Dev nD) (t : Fin cfg0.N) (h1 : 4 ≤ t.val % 8) (xs0 xs1 : Vec F S1x2048 .f32) (y : S1x512x2048.Idx) :
    ∃ pc ∈ (emitAt m c t h1 xs0 xs1).1, y ∈ pc.1.set :=
  View.cover_of_tiledL (emitAt m c t h1 xs0 xs1).1 S1x512x2048.size (by sl_kernel_rfl) y
theorem coverEmitOut (c : Dev nD) (t : Fin cfg0.N) (h1 : 4 ≤ t.val % 8) (xs0 xs1 : Vec F S1x2048 .f32) (y : S1x512x128.Idx) :
    ∃ pc ∈ (emitAt m c t h1 xs0 xs1).2.1, y ∈ pc.1.set :=
  View.cover_of_tiledL (emitAt m c t h1 xs0 xs1).2.1 S1x512x128.size (by sl_kernel_rfl) y

/-- What each case leaves: its stores read back. -/
def maxFirst (c : Dev nD) (t : Fin cfg0.N) (h0 : t.val % 8 = 0) : Vec F S1x2048 .f32 :=
  VMax.read (Elt F) (VMax.writes (Elt F) VMax.junk (firstAt m c t h0).1)
def sumFirst (c : Dev nD) (t : Fin cfg0.N) (h0 : t.val % 8 = 0) : Vec F S1x2048 .f32 :=
  VSum.read (Elt F) (VSum.writes (Elt F) VSum.junk (firstAt m c t h0).2.1)
def maxFold (c : Dev nD) (t : Fin cfg0.N) (h0 : ¬t.val % 8 = 0) (h1 : t.val % 8 < 4) (xs0 xs1 : Vec F S1x2048 .f32) : Vec F S1x2048 .f32 :=
  VMax.read (Elt F) (VMax.writes (Elt F) VMax.junk (foldAt m c t h0 h1 xs0 xs1).1)
def sumFold (c : Dev nD) (t : Fin cfg0.N) (h0 : ¬t.val % 8 = 0) (h1 : t.val % 8 < 4) (xs0 xs1 : Vec F S1x2048 .f32) : Vec F S1x2048 .f32 :=
  VSum.read (Elt F) (VSum.writes (Elt F) VSum.junk (foldAt m c t h0 h1 xs0 xs1).2.1)
def gateEmit (c : Dev nD) (t : Fin cfg0.N) (h1 : 4 ≤ t.val % 8) (xs0 xs1 : Vec F S1x2048 .f32) : Vec F S1x512x2048 .f32 :=
  VGate.read (Elt F) (VGate.writes (Elt F) VGate.junk (emitAt m c t h1 xs0 xs1).1)
def outEmit (c : Dev nD) (t : Fin cfg0.N) (h1 : 4 ≤ t.val % 8) (xs0 xs1 : Vec F S1x2048 .f32) : Vec F S1x512x128 .f32 :=
  VOut.read (Elt F) (VOut.writes (Elt F) VOut.junk (emitAt m c t h1 xs0 xs1).2.1)

/-! ## The scratch buffers after each point -/

/-- The running column maximum and sum after the body at position `n`. -/
def scrAt (c : Dev nD) : (n : ℕ) → n < cfg0.N → Vec F S1x2048 .f32 × Vec F S1x2048 .f32
  | 0, hn => (maxFirst m c ⟨0, hn⟩ (Nat.zero_mod _), sumFirst m c ⟨0, hn⟩ (Nat.zero_mod _))
  | n + 1, hn =>
    if h0 : (n + 1) % 8 = 0 then (maxFirst m c ⟨n + 1, hn⟩ h0, sumFirst m c ⟨n + 1, hn⟩ h0)
    else if h1 : (n + 1) % 8 < 4 then
      (maxFold m c ⟨n + 1, hn⟩ h0 h1 (scrAt c n (Nat.lt_of_succ_lt hn)).1 (scrAt c n (Nat.lt_of_succ_lt hn)).2,
       sumFold m c ⟨n + 1, hn⟩ h0 h1 (scrAt c n (Nat.lt_of_succ_lt hn)).1 (scrAt c n (Nat.lt_of_succ_lt hn)).2)
    else scrAt c n (Nat.lt_of_succ_lt hn)

/-- The scratch contents the body finds at a point that is not the first. -/
abbrev scrBefore (c : Dev nD) (t : Fin cfg0.N) : Vec F S1x2048 .f32 × Vec F S1x2048 .f32 :=
  scrAt m c (t.val - 1) (Nat.lt_of_le_of_lt (Nat.sub_le _ _) t.isLt)

theorem scrAt_first (c : Dev nD) (t : Fin cfg0.N) (h0 : t.val % 8 = 0) :
    scrAt m c t.val t.isLt = (maxFirst m c t h0, sumFirst m c t h0) := by
  obtain ⟨n, hn⟩ := t
  cases n with
  | zero => exact rfl
  | succ n => exact (dif_pos h0).trans rfl

theorem scrAt_fold (c : Dev nD) (t : Fin cfg0.N) (h0 : ¬t.val % 8 = 0) (h1 : t.val % 8 < 4) :
    scrAt m c t.val t.isLt = (maxFold m c t h0 h1 (scrBefore m c t).1 (scrBefore m c t).2, sumFold m c t h0 h1 (scrBefore m c t).1 (scrBefore m c t).2) := by
  obtain ⟨n, hn⟩ := t
  cases n with
  | zero => exact absurd (Nat.zero_mod _) h0
  | succ n => exact (dif_neg h0).trans ((dif_pos h1).trans rfl)

theorem scrAt_emit (c : Dev nD) (t : Fin cfg0.N) (h1 : 4 ≤ t.val % 8) : scrAt m c t.val t.isLt = scrBefore m c t := by
  obtain ⟨n, hn⟩ := t
  have h1' : 4 ≤ n % 8 := h1
  cases n with
  | zero => omega
  | succ n =>
    have a : ¬(n + 1) % 8 = 0 := by omega
    have b : ¬(n + 1) % 8 < 4 := by omega
    exact (dif_neg a).trans ((dif_neg b).trans rfl)

/-- The output blocks after the body at point `t`: in phase 1 what that case stores; in phase 0 (idle, not written back,
    consulted by nothing) a placeholder. -/
def gateAt (c : Dev nD) (t : Fin cfg0.N) : Vec F S1x512x2048 .f32 :=
  if h1 : 4 ≤ t.val % 8 then gateEmit m c t h1 (scrBefore m c t).1 (scrBefore m c t).2 else VGate.read (Elt F) VGate.junk
def outAt (c : Dev nD) (t : Fin cfg0.N) : Vec F S1x512x128 .f32 :=
  if h1 : 4 ≤ t.val % 8 then outEmit m c t h1 (scrBefore m c t).1 (scrBefore m c t).2 else VOut.read (Elt F) VOut.junk

/-! ## The invariant between points -/

def PhiS (c : Dev nD) : (n : ℕ) → n ≤ cfg0.N → sProp 𝕄
  | 0, _ => Pipeline.ΦA spec0 c
  | n + 1, hn => iprop(iprop(owns (c : Thread nD τ) scMax fullShare ((scrAt m c n hn).1) ∗ owns (c : Thread nD τ) scSum fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((scrAt m c n hn).1) ∗ owns (c : Thread nD τ) scSum fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) scMax fullShare ((scrAt m c (n - 1) (by omega)).1) ∗ owns (c : Thread nD τ) scSum fullShare ((scrAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gateAt m c t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = gateAt m c t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 128 := lt_of_lt_of_eq t.isLt (show cfg0.N = 128 from N_0)
  by_cases h0 : t.val % 8 = 0
  · have h1 : t.val % 8 < 4 := by omega
    rw [Dat.leavesExact_idle (dats m 0 c) 4 t (idleAt0_4 t h1) (noFlush0_4 t h1), Dat.leavesExact_idle (dats m 0 c) 5 t (idleAt0_5 t h1) (noFlush0_5 t h1)]
    rw [scrAt_first m c t h0]
    unfold maxFirst sumFirst; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((firstAt m c t h0).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstMax m c t h0)
          · unfold owns; iexists _; isplitr
            swap; · iexact HS1
            ipureintro; exact View.read_writes_of_cover _ _ _ _ _ (coverFirstSum m c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((firstAt m c t h0).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstMax m c t h0)
          · unfold owns; iexists _; isplitr
            swap; · iexact HS1
            ipureintro; exact View.read_writes_of_cover _ _ _ _ _ (coverFirstSum m c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 8 < 4
    · rw [Dat.leavesExact_idle (dats m 0 c) 4 t (idleAt0_4 t h1) (noFlush0_4 t h1), Dat.leavesExact_idle (dats m 0 c) 5 t (idleAt0_5 t h1) (noFlush0_5 t h1)]
      rw [scrAt_fold m c t h0 h1]
      unfold maxFold sumFold; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((foldAt m c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFoldMax m c t h0 h1 _ _)
          · unfold owns; iexists _; isplitr
            swap; · iexact HS1
            ipureintro; exact View.read_writes_of_cover _ _ _ _ _ (coverFoldSum m c t h0 h1 _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have h1' : 4 ≤ t.val % 8 := by omega
      rw [show (dats m 0 c).leavesExact 4 t = owns (c : Thread nD τ) (ms0_4 t) fullShare ((dats m 0 c).after 4 t) from by
        unfold Dat.leavesExact; rw [liveAt0_4 t h1'], after0_4]
      rw [show (dats m 0 c).leavesExact 5 t = owns (c : Thread nD τ) (ms0_5 t) fullShare ((dats m 0 c).after 5 t) from by
        unfold Dat.leavesExact; rw [liveAt0_5 t h1'], after0_5]
      rw [scrAt_emit m c t h1']
      rw [show gateAt m c t = gateEmit m c t h1' (scrBefore m c t).1 (scrBefore m c t).2 from dif_pos h1',
        show outAt m c t = outEmit m c t h1' (scrBefore m c t).1 (scrBefore m c t).2 from dif_pos h1']
      unfold gateEmit outEmit; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((emitAt m c t h1' _ _).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverEmitGate m c t h1' _ _)
      unfold owns; iexists _; isplitr
      swap; · iexact H5
      ipureintro; exact View.read_writes_of_cover _ _ _ _ _ (coverEmitOut m c t h1' _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, nothing faulting, with every array of the pipeline at what
    the proof data's write-backs give and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KernelIdealCases.lean ====
/-
  The three control cases of the kernel body over the grid (batch, phase, query tile), point t = 8·batch + 4·phase + tile.

  The body has three conditionals: phase = 0 ∧ tile = 0 (reset the running column maximum to −∞ and the running column
  sum to 0), phase = 0 (fold this tile's 512 query rows into the running column statistics), phase = 1 (with the column
  statistics final, write this tile's gated weights and their product with the values). Over the 128 points the first
  holds exactly where t ≡ 0 (mod 8), the second where t mod 8 < 4, the third where 4 ≤ t mod 8; so each point is in
  one of three cases: first tile of phase 0, a later tile of phase 0, a tile of phase 1. The two output windows are
  stored only in phase 1: in phase 0 they are idle and their block (pinned at tile 0) is not written back.
-/
import proofs.«113338_j73452530696353_1_alg».proof.Proof.Gen.KernelIdeal.Frame
import proofs.«113338_j73452530696353_1_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the body computes them from the coordinates -/

/-- phase = 0 and tile = 0. -/
abbrev condReset (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- phase = 0. -/
abbrev condFold (i : grid0.Coords) : Prop :=
  Scalar.cmpi .ne (Scalar.extui (Scalar.cmpi .eq (BitVec.ofNat 32 (i 1).val) 0#32)) 0#32 = 1#1
/-- phase = 1. -/
abbrev condEmit (i : grid0.Coords) : Prop := k0_cond3 i = 1#1

theorem hcondReset : ∀ t : Fin cfg0.N, condReset (grid0.coords t) ↔ t.val % 8 = 0 :=
  (by decide +kernel : ∀ t : Fin grid0.N, condReset (grid0.coords t) ↔ t.val % 8 = 0)
theorem hcondFold : ∀ t : Fin cfg0.N, condFold (grid0.coords t) ↔ t.val % 8 < 4 :=
  (by decide +kernel : ∀ t : Fin grid0.N, condFold (grid0.coords t) ↔ t.val % 8 < 4)
theorem hcondEmit : ∀ t : Fin cfg0.N, condEmit (grid0.coords t) ↔ 4 ≤ t.val % 8 :=
  (by decide +kernel : ∀ t : Fin grid0.N, condEmit (grid0.coords t) ↔ 4 ≤ t.val % 8)

/-! ## Where the windows are idle, and where the outputs' blocks are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In phase 0 the two outputs are idle and not written back; in phase 1 they are live. -/
theorem idleAt0_4 : ∀ t : Fin cfg0.N, t.val % 8 < 4 → cfg0.idle 4 (grid0.coords t) = true := by decide +kernel
theorem idleAt0_5 : ∀ t : Fin cfg0.N, t.val % 8 < 4 → cfg0.idle 5 (grid0.coords t) = true := by decide +kernel
theorem noFlush0_4 : ∀ t : Fin cfg0.N, t.val % 8 < 4 → (cfg0.win 4).flush t = false := by decide +kernel
theorem noFlush0_5 : ∀ t : Fin cfg0.N, t.val % 8 < 4 → (cfg0.win 5).flush t = false := by decide +kernel
theorem liveAt0_4 : ∀ t : Fin cfg0.N, 4 ≤ t.val % 8 → cfg0.idle 4 (grid0.coords t) = false := by decide +kernel
theorem liveAt0_5 : ∀ t : Fin cfg0.N, 4 ≤ t.val % 8 → cfg0.idle 5 (grid0.coords t) = false := by decide +kernel

/-! ## The memrefs the body is called with -/

abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .f32 := win0_5.stage (cfg0.slots t 5)
abbrev hs0_5 (t : Fin cfg0.N) : (ms0_5 t).IsWhole := hstage0_5 ((cfg0.slots t 5).cast nbuf0_5)
/-- The running column maximum and the running column sum: whole scratch buffers carried from point to point. -/
abbrev scMax : Memref sig .tc .vmem S1x2048 .f32 := Memref.whole cc0_scratch0
abbrev scSum : Memref sig .tc .vmem S1x2048 .f32 := Memref.whole cc0_scratch1
abbrev VMax : View sig .tc .vmem S1x2048 .f32 := (scMax : Memref sig .tc .vmem S1x2048 .f32).view
abbrev VSum : View sig .tc .vmem S1x2048 .f32 := (scSum : Memref sig .tc .vmem S1x2048 .f32).view
/-- One staging buffer of each output window, through which its contents are stated. -/
abbrev VGate : View sig .tc .vmem S1x512x2048 .f32 := (Memref.whole cc0_stg4_0 : Memref sig .tc .vmem S1x512x2048 .f32).view
abbrev VOut : View sig .tc .vmem S1x512x128 .f32 := (Memref.whole cc0_stg5_0 : Memref sig .tc .vmem S1x512x128 .f32).view

/-- What the region hands the body besides the windows: both scratch buffers at some contents, and the generator register. -/
theorem PhiA0_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

end Cert.KernelIdeal.Gen

end
-- ==== Proof.KernelIdealRunFirst.lean ====
/-
  The body at the first tile of phase 0 (phase = 0, tile = 0): the running column maximum is reset to −∞ and the running
  column sum to 0, then this tile's 512 query rows are folded into them; nothing is stored into the two output blocks.
  The run is by symbolic execution of the body's memory operations; what each scratch buffer ends with is found as the
  list of stores into it, whatever the buffers held before.
-/
import proofs.«113338_j73452530696353_1_alg».proof.Proof.KernelIdealCases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : condReset i) (hc1 : condFold i) (hc2 : ¬condEmit i)
    (x0 : Vec F S1x512x128 .bf16) (x1 : Vec F S1x2048x128 .bf16) (x2 : Vec F S1x2048x128 .bf16) (x3 : Vec F S1x512x2048 .bf16) :
    Σ' (LMax : List (View.Piece (Elt F) S1x2048 .f32)), { LSum : List (View.Piece (Elt F) S1x2048 .f32) //
      ∀ (xi4 : Vec F S1x512x2048 .f32) (xi5 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LSum)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Gen

end
-- ==== Proof.KernelIdealRunFold.lean ====
/-
  The body at a later tile of phase 0 (phase = 0, tile ≠ 0): this tile's 512 query rows are folded into the running column
  maximum and the running column sum the tile before left; nothing is stored into the two output blocks. What each
  scratch buffer ends with is found as the list of stores into it, over the contents found there.
-/
import proofs.«113338_j73452530696353_1_alg».proof.Proof.KernelIdealRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFold (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : ¬condReset i) (hc1 : condFold i) (hc2 : ¬condEmit i)
    (x0 : Vec F S1x512x128 .bf16) (x1 : Vec F S1x2048x128 .bf16) (x2 : Vec F S1x2048x128 .bf16) (x3 : Vec F S1x512x2048 .bf16) (xs0 : Vec F S1x2048 .f32) (xs1 : Vec F S1x2048 .f32) :
    Σ' (LMax : List (View.Piece (Elt F) S1x2048 .f32)), { LSum : List (View.Piece (Elt F) S1x2048 .f32) //
      ∀ (xi4 : Vec F S1x512x2048 .f32) (xi5 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LSum)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Gen

end
-- ==== Proof.KernelIdealRunEmit.lean ====
/-
  The body at a tile of phase 1: with the running column maximum and sum final and only read, this tile's gated weights
  are stored into the first output block and their product with the values into the second. What each output block
  ends with is found as the list of stores into it; the scratch buffers are handed back as found.
-/
import proofs.«113338_j73452530696353_1_alg».proof.Proof.KernelIdealRunFold

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runEmit (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S1x512x128 .f32) (harg8 : arg8.IsWhole) (arg9 : Memref sig .tc .vmem S1x2048 .f32) (harg9 : arg9.IsWhole) (arg10 : Memref sig .tc .vmem S1x2048 .f32) (harg10 : arg10.IsWhole) (hc0 : ¬condReset i) (hc1 : ¬condFold i) (hc2 : condEmit i)
    (x0 : Vec F S1x512x128 .bf16) (x1 : Vec F S1x2048x128 .bf16) (x2 : Vec F S1x2048x128 .bf16) (x3 : Vec F S1x512x2048 .bf16) (xs0 : Vec F S1x2048 .f32) (xs1 : Vec F S1x2048 .f32) :
    Σ' (LGate : List (View.Piece (Elt F) S1x512x2048 .f32)), { LOut : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LGate) ∗ (∃ f, arg8.view.loc (c : Thread nD τ) ↦[arg8.view.set]{fullShare} arg8.view.writes (Elt F) f LOut) ∗ owns (c : Thread nD τ) arg9 fullShare xs0 ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg9.eq_unread hfs0; obtain rfl := harg10.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]
    · iexists _; isplitr; · ipureintro; exact harg9.read_unread _
      iexact HS0
    iexists _; isplitr; · ipureintro; exact harg10.read_unread _
    iexact HS1

end Cert.KernelIdeal.Gen

end
-- ==== Proof.KernelIdealPoints.lean ====
/-
  Point by point. After the body at point t the scratch buffers hold: at the first tile of phase 0 what the reset and the
  first fold leave; at a later tile of phase 0 this tile folded into what the point before left; at a tile of phase 1
  what the point before left (phase 1 only reads them). The output blocks hold, at a tile of phase 1, what that case
  stores — a function of the scratch contents the last tile of phase 0 left; in phase 0 they are idle. With this as
  the proof data, each point's body obligation is that point's case, and the pipeline's run follows: every weakly fair
  execution ends, nothing faults, and the argument arrays are as they were.
-/
import proofs.«113338_j73452530696353_1_alg».proof.Proof.KernelIdealRunEmit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

abbrev firstAt (c : Dev nD) (t : Fin cfg0.N) (h0 : t.val % 8 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) ((hcondReset t).mpr h0) ((hcondFold t).mpr (by omega)) (fun h => by have := (hcondEmit t).mp h; omega) (iblk m c 0 t) (iblk m c 1 t) (iblk m c 2 t) (iblk m c 3 t)
abbrev foldAt (c : Dev nD) (t : Fin cfg0.N) (h0 : ¬t.val % 8 = 0) (h1 : t.val % 8 < 4) (xs0 xs1 : Vec F S1x2048 .f32) :=
  runFold (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) (fun h => h0 ((hcondReset t).mp h)) ((hcondFold t).mpr h1) (fun h => by have := (hcondEmit t).mp h; omega) (iblk m c 0 t) (iblk m c 1 t) (iblk m c 2 t) (iblk m c 3 t) xs0 xs1
abbrev emitAt (c : Dev nD) (t : Fin cfg0.N) (h1 : 4 ≤ t.val % 8) (xs0 xs1 : Vec F S1x2048 .f32) :=
  runEmit (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMax (Memref.isWhole_whole _) scSum (Memref.isWhole_whole _) (fun h => by have := (hcondReset t).mp h; omega) (fun h => by have := (hcondFold t).mp h; omega) ((hcondEmit t).mpr h1) (iblk m c 0 t) (iblk m c 1 t) (iblk m c 2 t) (iblk m c 3 t) xs0 xs1

/-- The stores of each case cover the buffer they go into (each is one store of the whole buffer). -/
theorem coverFirstMax (c : Dev nD) (t : Fin cfg0.N) (h0 : t.val % 8 = 0) (y : S1x2048.Idx) : ∃ pc ∈ (firstAt m c t h0).1, y ∈ pc.1.set :=
  View.cover_of_tiledL (firstAt m c t h0).1 S1x2048.size (by sl_kernel_rfl) y
theorem coverFirstSum (c : Dev nD) (t : Fin cfg0.N) (h0 : t.val % 8 = 0) (y : S1x2048.Idx) : ∃ pc ∈ (firstAt m c t h0).2.1, y ∈ pc.1.set :=
  View.cover_of_tiledL (firstAt m c t h0).2.1 S1x2048.size (by sl_kernel_rfl) y
theorem coverFoldMax (c : Dev nD) (t : Fin cfg0.N) (h0 : ¬t.val % 8 = 0) (h1 : t.val % 8 < 4) (xs0 xs1 : Vec F S1x2048 .f32) (y : S1x2048.Idx) :
    ∃ pc ∈ (foldAt m c t h0 h1 xs0 xs1).1, y ∈ pc.1.set :=
  View.cover_of_tiledL (foldAt m c t h0 h1 xs0 xs1).1 S1x2048.size (by sl_kernel_rfl) y
theorem coverFoldSum (c : Dev nD) (t : Fin cfg0.N) (h0 : ¬t.val % 8 = 0) (h1 : t.val % 8 < 4) (xs0 xs1 : Vec F S1x2048 .f32) (y : S1x2048.Idx) :
    ∃ pc ∈ (foldAt m c t h0 h1 xs0 xs1).2.1, y ∈ pc.1.set :=
  View.cover_of_tiledL (foldAt m c t h0 h1 xs0 xs1).2.1 S1x2048.size (by sl_kernel_rfl) y
theorem coverEmitGate (c : Dev nD) (t : Fin cfg0.N) (h1 : 4 ≤ t.val % 8) (xs0 xs1 : Vec F S1x2048 .f32) (y : S1x512x2048.Idx) :
    ∃ pc ∈ (emitAt m c t h1 xs0 xs1).1, y ∈ pc.1.set :=
  View.cover_of_tiledL (emitAt m c t h1 xs0 xs1).1 S1x512x2048.size (by sl_kernel_rfl) y
theorem coverEmitOut (c : Dev nD) (t : Fin cfg0.N) (h1 : 4 ≤ t.val % 8) (xs0 xs1 : Vec F S1x2048 .f32) (y : S1x512x128.Idx) :
    ∃ pc ∈ (emitAt m c t h1 xs0 xs1).2.1, y ∈ pc.1.set :=
  View.cover_of_tiledL (emitAt m c t h1 xs0 xs1).2.1 S1x512x128.size (by sl_kernel_rfl) y

/-- What each case leaves: its stores read back. -/
def maxFirst (c : Dev nD) (t : Fin cfg0.N) (h0 : t.val % 8 = 0) : Vec F S1x2048 .f32 :=
  VMax.read (Elt F) (VMax.writes (Elt F) VMax.junk (firstAt m c t h0).1)
def sumFirst (c : Dev nD) (t : Fin cfg0.N) (h0 : t.val % 8 = 0) : Vec F S1x2048 .f32 :=
  VSum.read (Elt F) (VSum.writes (Elt F) VSum.junk (firstAt m c t h0).2.1)
def maxFold (c : Dev nD) (t : Fin cfg0.N) (h0 : ¬t.val % 8 = 0) (h1 : t.val % 8 < 4) (xs0 xs1 : Vec F S1x2048 .f32) : Vec F S1x2048 .f32 :=
  VMax.read (Elt F) (VMax.writes (Elt F) VMax.junk (foldAt m c t h0 h1 xs0 xs1).1)
def sumFold (c : Dev nD) (t : Fin cfg0.N) (h0 : ¬t.val % 8 = 0) (h1 : t.val % 8 < 4) (xs0 xs1 : Vec F S1x2048 .f32) : Vec F S1x2048 .f32 :=
  VSum.read (Elt F) (VSum.writes (Elt F) VSum.junk (foldAt m c t h0 h1 xs0 xs1).2.1)
def gateEmit (c : Dev nD) (t : Fin cfg0.N) (h1 : 4 ≤ t.val % 8) (xs0 xs1 : Vec F S1x2048 .f32) : Vec F S1x512x2048 .f32 :=
  VGate.read (Elt F) (VGate.writes (Elt F) VGate.junk (emitAt m c t h1 xs0 xs1).1)
def outEmit (c : Dev nD) (t : Fin cfg0.N) (h1 : 4 ≤ t.val % 8) (xs0 xs1 : Vec F S1x2048 .f32) : Vec F S1x512x128 .f32 :=
  VOut.read (Elt F) (VOut.writes (Elt F) VOut.junk (emitAt m c t h1 xs0 xs1).2.1)

/-! ## The scratch buffers after each point -/

/-- The running column maximum and sum after the body at position `n`. -/
def scrAt (c : Dev nD) : (n : ℕ) → n < cfg0.N → Vec F S1x2048 .f32 × Vec F S1x2048 .f32
  | 0, hn => (maxFirst m c ⟨0, hn⟩ (Nat.zero_mod _), sumFirst m c ⟨0, hn⟩ (Nat.zero_mod _))
  | n + 1, hn =>
    if h0 : (n + 1) % 8 = 0 then (maxFirst m c ⟨n + 1, hn⟩ h0, sumFirst m c ⟨n + 1, hn⟩ h0)
    else if h1 : (n + 1) % 8 < 4 then
      (maxFold m c ⟨n + 1, hn⟩ h0 h1 (scrAt c n (Nat.lt_of_succ_lt hn)).1 (scrAt c n (Nat.lt_of_succ_lt hn)).2,
       sumFold m c ⟨n + 1, hn⟩ h0 h1 (scrAt c n (Nat.lt_of_succ_lt hn)).1 (scrAt c n (Nat.lt_of_succ_lt hn)).2)
    else scrAt c n (Nat.lt_of_succ_lt hn)

/-- The scratch contents the body finds at a point that is not the first. -/
abbrev scrBefore (c : Dev nD) (t : Fin cfg0.N) : Vec F S1x2048 .f32 × Vec F S1x2048 .f32 :=
  scrAt m c (t.val - 1) (Nat.lt_of_le_of_lt (Nat.sub_le _ _) t.isLt)

theorem scrAt_first (c : Dev nD) (t : Fin cfg0.N) (h0 : t.val % 8 = 0) :
    scrAt m c t.val t.isLt = (maxFirst m c t h0, sumFirst m c t h0) := by
  obtain ⟨n, hn⟩ := t
  cases n with
  | zero => exact rfl
  | succ n => exact (dif_pos h0).trans rfl

theorem scrAt_fold (c : Dev nD) (t : Fin cfg0.N) (h0 : ¬t.val % 8 = 0) (h1 : t.val % 8 < 4) :
    scrAt m c t.val t.isLt = (maxFold m c t h0 h1 (scrBefore m c t).1 (scrBefore m c t).2, sumFold m c t h0 h1 (scrBefore m c t).1 (scrBefore m c t).2) := by
  obtain ⟨n, hn⟩ := t
  cases n with
  | zero => exact absurd (Nat.zero_mod _) h0
  | succ n => exact (dif_neg h0).trans ((dif_pos h1).trans rfl)

theorem scrAt_emit (c : Dev nD) (t : Fin cfg0.N) (h1 : 4 ≤ t.val % 8) : scrAt m c t.val t.isLt = scrBefore m c t := by
  obtain ⟨n, hn⟩ := t
  have h1' : 4 ≤ n % 8 := h1
  cases n with
  | zero => omega
  | succ n =>
    have a : ¬(n + 1) % 8 = 0 := by omega
    have b : ¬(n + 1) % 8 < 4 := by omega
    exact (dif_neg a).trans ((dif_neg b).trans rfl)

/-- The output blocks after the body at point `t`: in phase 1 what that case stores; in phase 0 (idle, not written back,
    consulted by nothing) a placeholder. -/
def gateAt (c : Dev nD) (t : Fin cfg0.N) : Vec F S1x512x2048 .f32 :=
  if h1 : 4 ≤ t.val % 8 then gateEmit m c t h1 (scrBefore m c t).1 (scrBefore m c t).2 else VGate.read (Elt F) VGate.junk
def outAt (c : Dev nD) (t : Fin cfg0.N) : Vec F S1x512x128 .f32 :=
  if h1 : 4 ≤ t.val % 8 then outEmit m c t h1 (scrBefore m c t).1 (scrBefore m c t).2 else VOut.read (Elt F) VOut.junk

/-! ## The invariant between points -/

def PhiS (c : Dev nD) : (n : ℕ) → n ≤ cfg0.N → sProp 𝕄
  | 0, _ => Pipeline.ΦA spec0 c
  | n + 1, hn => iprop(iprop(owns (c : Thread nD τ) scMax fullShare ((scrAt m c n hn).1) ∗ owns (c : Thread nD τ) scSum fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((scrAt m c n hn).1) ∗ owns (c : Thread nD τ) scSum fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) scMax fullShare ((scrAt m c (n - 1) (by omega)).1) ∗ owns (c : Thread nD τ) scSum fullShare ((scrAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gateAt m c t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = gateAt m c t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 128 := lt_of_lt_of_eq t.isLt (show cfg0.N = 128 from N_0)
  by_cases h0 : t.val % 8 = 0
  · have h1 : t.val % 8 < 4 := by omega
    rw [Dat.leavesExact_idle (dats m 0 c) 4 t (idleAt0_4 t h1) (noFlush0_4 t h1), Dat.leavesExact_idle (dats m 0 c) 5 t (idleAt0_5 t h1) (noFlush0_5 t h1)]
    rw [scrAt_first m c t h0]
    unfold maxFirst sumFirst; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((firstAt m c t h0).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstMax m c t h0)
          · unfold owns; iexists _; isplitr
            swap; · iexact HS1
            ipureintro; exact View.read_writes_of_cover _ _ _ _ _ (coverFirstSum m c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((firstAt m c t h0).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstMax m c t h0)
          · unfold owns; iexists _; isplitr
            swap; · iexact HS1
            ipureintro; exact View.read_writes_of_cover _ _ _ _ _ (coverFirstSum m c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 8 < 4
    · rw [Dat.leavesExact_idle (dats m 0 c) 4 t (idleAt0_4 t h1) (noFlush0_4 t h1), Dat.leavesExact_idle (dats m 0 c) 5 t (idleAt0_5 t h1) (noFlush0_5 t h1)]
      rw [scrAt_fold m c t h0 h1]
      unfold maxFold sumFold; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((foldAt m c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFoldMax m c t h0 h1 _ _)
          · unfold owns; iexists _; isplitr
            swap; · iexact HS1
            ipureintro; exact View.read_writes_of_cover _ _ _ _ _ (coverFoldSum m c t h0 h1 _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have h1' : 4 ≤ t.val % 8 := by omega
      rw [show (dats m 0 c).leavesExact 4 t = owns (c : Thread nD τ) (ms0_4 t) fullShare ((dats m 0 c).after 4 t) from by
        unfold Dat.leavesExact; rw [liveAt0_4 t h1'], after0_4]
      rw [show (dats m 0 c).leavesExact 5 t = owns (c : Thread nD τ) (ms0_5 t) fullShare ((dats m 0 c).after 5 t) from by
        unfold Dat.leavesExact; rw [liveAt0_5 t h1'], after0_5]
      rw [scrAt_emit m c t h1']
      rw [show gateAt m c t = gateEmit m c t h1' (scrBefore m c t).1 (scrBefore m c t).2 from dif_pos h1',
        show outAt m c t = outEmit m c t h1' (scrBefore m c t).1 (scrBefore m c t).2 from dif_pos h1']
      unfold gateEmit outEmit; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((emitAt m c t h1' _ _).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverEmitGate m c t h1' _ _)
      unfold owns; iexists _; isplitr
      swap; · iexact H5
      ipureintro; exact View.read_writes_of_cover _ _ _ _ _ (coverEmitOut m c t h1' _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, nothing faulting, with every array of the pipeline at what
    the proof data's write-backs give and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.KernelIdealPieces.lean ====
/-
  What each case leaves, as the body's arithmetic applied to what it loaded. Every store of the body writes a whole
  buffer, so what a buffer ends with is its last store's value; a load of a whole buffer reads its contents, and a load
  of a scratch buffer after a store in the same point reads that store's value. Hence: the first tile of phase 0 leaves
  the fold of this tile into the reset values (−∞ and 0); a later tile of phase 0 the fold of this tile into what it found;
  a tile of phase 1 the gated weights and the result computed from the column statistics it found.
-/
import proofs.«113338_j73452530696353_1_alg».proof.Proof.KernelIdealPoints
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem zeros2 : (![0, 0] : Fin 2 → ℕ) = fun _ => 0 := by funext a; fin_cases a <;> rfl
theorem zeros3 : (![0, 0, 0] : Fin 3 → ℕ) = fun _ => 0 := by funext a; fin_cases a <;> rfl

/-- A whole scratch buffer holding `xs` reads `xs`. -/
theorem readMax_eq (xs : Vec F S1x2048 .f32) :
    View.read (Elt F) (View.whole cc0_scratch0) ((Memref.isWhole_whole _ : (scMax : Memref sig .tc .vmem S1x2048 .f32).IsWhole).unread xs) = xs :=
  (Memref.isWhole_whole _ : (scMax : Memref sig .tc .vmem S1x2048 .f32).IsWhole).read_unread xs
theorem readSum_eq (xs : Vec F S1x2048 .f32) :
    View.read (Elt F) (View.whole cc0_scratch1) ((Memref.isWhole_whole _ : (scSum : Memref sig .tc .vmem S1x2048 .f32).IsWhole).unread xs) = xs :=
  (Memref.isWhole_whole _ : (scSum : Memref sig .tc .vmem S1x2048 .f32).IsWhole).read_unread xs

theorem maxFirst_eq (c : Dev nD) (t : Fin cfg0.N) (h0 : t.val % 8 = 0) :
    maxFirst m c t h0 = k0_pay7 (iblk m c 0 t) (iblk m c 1 t) (k0_pay1 (F := F)) := by
  unfold maxFirst
  rw [View.read_writes_eq_canon _ _ _ (coverFirstMax m c t h0)]
  unfold firstAt runFirst
  dsimp only
  sl_unfold_words
  rw [View.canon_cons_unit_zero zeros2]
  simp only [View.readAt_eq_ld, Memref.IsWhole.read_unread, View.readCov_unit_zero (S := S1x2048) _ zeros2,
    View.ld_unit_zero (S := S1x512x128) zeros3, View.ld_unit_zero (S := S1x2048x128) zeros3, View.ld_unit_zero (S := S1x2048) zeros2]

theorem sumFirst_eq (c : Dev nD) (t : Fin cfg0.N) (h0 : t.val % 8 = 0) :
    sumFirst m c t h0 = k0_pay6 (iblk m c 0 t) (iblk m c 1 t) (iblk m c 3 t) (k0_pay1 (F := F)) (k0_pay1 (F := F)) (k0_pay2 (F := F)) := by
  unfold sumFirst
  rw [View.read_writes_eq_canon _ _ _ (coverFirstSum m c t h0)]
  unfold firstAt runFirst
  dsimp only
  sl_unfold_words
  rw [View.canon_cons_unit_zero zeros2]
  simp only [View.readAt_eq_ld, Memref.IsWhole.read_unread, View.readCov_unit_zero (S := S1x2048) _ zeros2,
    View.ld_unit_zero (S := S1x512x128) zeros3, View.ld_unit_zero (S := S1x2048x128) zeros3, View.ld_unit_zero (S := S1x512x2048) zeros3, View.ld_unit_zero (S := S1x2048) zeros2]

theorem maxFold_eq (c : Dev nD) (t : Fin cfg0.N) (h0 : ¬t.val % 8 = 0) (h1 : t.val % 8 < 4) (xs0 xs1 : Vec F S1x2048 .f32) :
    maxFold m c t h0 h1 xs0 xs1 = k0_pay7 (iblk m c 0 t) (iblk m c 1 t) xs0 := by
  unfold maxFold
  rw [View.read_writes_eq_canon _ _ _ (coverFoldMax m c t h0 h1 xs0 xs1)]
  unfold foldAt runFold
  dsimp only
  sl_unfold_words
  rw [View.canon_unit_zero zeros2]
  simp only [View.readAt_eq_ld, Memref.IsWhole.read_unread,
    View.ld_unit_zero (S := S1x512x128) zeros3, View.ld_unit_zero (S := S1x2048x128) zeros3, View.ld_unit_zero (S := S1x2048) zeros2]
  rw [readMax_eq]

theorem sumFold_eq (c : Dev nD) (t : Fin cfg0.N) (h0 : ¬t.val % 8 = 0) (h1 : t.val % 8 < 4) (xs0 xs1 : Vec F S1x2048 .f32) :
    sumFold m c t h0 h1 xs0 xs1 = k0_pay6 (iblk m c 0 t) (iblk m c 1 t) (iblk m c 3 t) xs0 xs0 xs1 := by
  unfold sumFold
  rw [View.read_writes_eq_canon _ _ _ (coverFoldSum m c t h0 h1 xs0 xs1)]
  unfold foldAt runFold
  dsimp only
  sl_unfold_words
  rw [View.canon_unit_zero zeros2]
  simp only [View.readAt_eq_ld, Memref.IsWhole.read_unread,
    View.ld_unit_zero (S := S1x512x128) zeros3, View.ld_unit_zero (S := S1x2048x128) zeros3, View.ld_unit_zero (S := S1x512x2048) zeros3, View.ld_unit_zero (S := S1x2048) zeros2]
  rw [readMax_eq, readSum_eq]

theorem gateEmit_eq (c : Dev nD) (t : Fin cfg0.N) (h1 : 4 ≤ t.val % 8) (xs0 xs1 : Vec F S1x2048 .f32) :
    gateEmit m c t h1 xs0 xs1 = k0_pay9 (iblk m c 0 t) (iblk m c 1 t) (iblk m c 3 t) xs0 xs1 := by
  unfold gateEmit
  rw [View.read_writes_eq_canon _ _ _ (coverEmitGate m c t h1 xs0 xs1)]
  unfold emitAt runEmit
  dsimp only
  sl_unfold_words
  rw [View.canon_unit_zero zeros3]
  simp only [View.readAt_eq_ld, Memref.IsWhole.read_unread,
    View.ld_unit_zero (S := S1x512x128) zeros3, View.ld_unit_zero (S := S1x2048x128) zeros3, View.ld_unit_zero (S := S1x512x2048) zeros3, View.ld_unit_zero (S := S1x2048) zeros2]
  rw [readMax_eq, readSum_eq]

theorem outEmit_eq (c : Dev nD) (t : Fin cfg0.N) (h1 : 4 ≤ t.val % 8) (xs0 xs1 : Vec F S1x2048 .f32) :
    outEmit m c t h1 xs0 xs1 = k0_pay10 (iblk m c 0 t) (iblk m c 1 t) (iblk m c 3 t) xs0 xs1 (iblk m c 2 t) := by
  unfold outEmit
  rw [View.read_writes_eq_canon _ _ _ (coverEmitOut m c t h1 xs0 xs1)]
  unfold emitAt runEmit
  dsimp only
  sl_unfold_words
  rw [View.canon_unit_zero zeros3]
  simp only [View.readAt_eq_ld, Memref.IsWhole.read_unread,
    View.ld_unit_zero (S := S1x512x128) zeros3, View.ld_unit_zero (S := S1x2048x128) zeros3, View.ld_unit_zero (S := S1x512x2048) zeros3, View.ld_unit_zero (S := S1x2048) zeros2]
  rw [readMax_eq, readSum_eq]

end Cert.KernelIdeal.Gen

end
-- ==== Proof.KernelIdealBlocks.lean ====
/-
  The kernel's windows read at an index, on the extended reals.

  The four arrays the windows of the inputs slide over are the four arguments with their float format changed, and a
  change of float format is the identity on the extended reals: each is its argument. The grid has 128 points; point t
  has batch t / 8, phase (t / 4) % 2 and query tile t % 4. The windows' index maps and the points at which the two
  outputs are written back are decided once over the 128 points. A block's coordinate along an axis is its block
  index times the block's size plus the coordinate inside the block, so an entry (0, r, ·) of a block of 512 query
  rows at point t is the array's entry at batch t / 8 and row (t % 4) · 512 + r, and an entry (0, j, ·) of a block
  of all 2048 key rows is the array's entry at batch t / 8 and row j. The two outputs move with the query tile at
  the points of phase 1 only (4 ≤ t % 8), where they are written back, and those points' blocks cover both arrays.
-/
import proofs.«113338_j73452530696353_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Blocks

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (c : Dev nD)

/-! ## The cast arrays are the arguments: a change of float format is the identity on the extended reals -/

theorem V_main_v0 : (Gen.V m c main_v0 : S16x2048x128.Idx → EReal) = m ((c : Thread nD τ).loc main_arg0) := by
  dsimp only [Gen.V, Gen.hostOps0]
  after_results
  rfl

theorem V_main_v1 : (Gen.V m c main_v1 : S16x2048x128.Idx → EReal) = m ((c : Thread nD τ).loc main_arg1) := by
  dsimp only [Gen.V, Gen.hostOps0]
  after_results
  rfl

theorem V_main_v2 : (Gen.V m c main_v2 : S16x2048x128.Idx → EReal) = m ((c : Thread nD τ).loc main_arg2) := by
  dsimp only [Gen.V, Gen.hostOps0]
  after_results
  rfl

theorem V_main_v3 : (Gen.V m c main_v3 : S16x2048x2048.Idx → EReal) = m ((c : Thread nD τ).loc main_arg3) := by
  dsimp only [Gen.V, Gen.hostOps0]
  after_results
  rfl

/-! ## The index maps and the write-backs, decided once over the grid's 128 points

Point t has batch t / 8, phase (t / 4) % 2 and query tile t % 4; the points of phase 1 are those with 4 ≤ t % 8. -/

theorem idx0 : ∀ t : Fin cfg0.N, win0_0.index t (0 : Fin 3) = t.val / 8 ∧ win0_0.index t (1 : Fin 3) = t.val % 4
    ∧ win0_0.index t (2 : Fin 3) = 0 :=
  (by decide +kernel : ∀ t : Fin grid0.N, _)

theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

theorem idx2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)

theorem idx3 : ∀ t : Fin cfg0.N, win0_3.index t (0 : Fin 3) = t.val / 8 ∧ win0_3.index t (1 : Fin 3) = t.val % 4
    ∧ win0_3.index t (2 : Fin 3) = 0 :=
  (by decide +kernel : ∀ t : Fin grid0.N, _)

theorem idx4 : ∀ t : Fin cfg0.N, 4 ≤ t.val % 8 → win0_4.index t (0 : Fin 3) = t.val / 8
    ∧ win0_4.index t (1 : Fin 3) = t.val % 4 ∧ win0_4.index t (2 : Fin 3) = 0 :=
  (by decide +kernel : ∀ t : Fin grid0.N, _)

theorem idx5 : ∀ t : Fin cfg0.N, 4 ≤ t.val % 8 → win0_5.index t (0 : Fin 3) = t.val / 8
    ∧ win0_5.index t (1 : Fin 3) = t.val % 4 ∧ win0_5.index t (2 : Fin 3) = 0 :=
  (by decide +kernel : ∀ t : Fin grid0.N, _)

/-- The gate's window is written back exactly at the points of phase 1. -/
theorem flush4_iff : ∀ t : Fin cfg0.N, (cfg0.win 4).flush t = true ↔ 4 ≤ t.val % 8 :=
  (by decide +kernel : ∀ t : Fin grid0.N, win0_4.flush t = true ↔ 4 ≤ t.val % 8)

/-- The result's window is written back exactly at the points of phase 1. -/
theorem flush5_iff : ∀ t : Fin cfg0.N, (cfg0.win 5).flush t = true ↔ 4 ≤ t.val % 8 :=
  (by decide +kernel : ∀ t : Fin grid0.N, win0_5.flush t = true ↔ 4 ≤ t.val % 8)

theorem flush4_of_phase1 (t : Fin cfg0.N) (h : 4 ≤ t.val % 8) : (cfg0.win 4).flush t = true := (flush4_iff t).mpr h
theorem phase1_of_flush4 (t : Fin cfg0.N) (h : (cfg0.win 4).flush t = true) : 4 ≤ t.val % 8 := (flush4_iff t).mp h
theorem flush5_of_phase1 (t : Fin cfg0.N) (h : 4 ≤ t.val % 8) : (cfg0.win 5).flush t = true := (flush5_iff t).mpr h
theorem phase1_of_flush5 (t : Fin cfg0.N) (h : (cfg0.win 5).flush t = true) : 4 ≤ t.val % 8 := (flush5_iff t).mp h

/-! ## The blocks of the input windows, at an index, are the arguments at an index -/

/-- The batch of point t. -/
def bt (t : Fin cfg0.N) : Fin 16 := ⟨t.val / 8, by have h : t.val < cfg0.N := t.isLt; have hN : cfg0.N = 128 := N_0; omega⟩

/-- The query row of the array under row r of point t's tile of 512 rows. -/
def row (t : Fin cfg0.N) (r : Fin 512) : Fin 2048 := ⟨(t.val % 4) * 512 + r.val, by have := r.isLt; omega⟩

theorem iblk0_apply (t : Fin cfg0.N) (r : Fin 512) (d : Fin 128) :
    (Gen.iblk m c 0 t : S1x512x128.Idx → EReal) (ix3 0 r d)
      = m ((c : Thread nD τ).loc main_arg0) (ix3 (bt t) (row t r) d) := by
  obtain ⟨e0, e1, e2⟩ := idx0 t
  unfold Gen.iblk
  rw [View.read_apply]
  show (Gen.V m c main_v0 : S16x2048x128.Idx → EReal) _ = _
  rw [V_main_v0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = (t.val % 4) * 512 + r.val; omega
  | ⟨2, _⟩ => show win0_0.index t (2 : Fin 3) * 128 + 1 * d.val = d.val; omega

theorem iblk1_apply (t : Fin cfg0.N) (j : Fin 2048) (d : Fin 128) :
    (Gen.iblk m c 1 t : S1x2048x128.Idx → EReal) (ix3 0 j d)
      = m ((c : Thread nD τ).loc main_arg1) (ix3 (bt t) j d) := by
  obtain ⟨e0, e1, e2⟩ := idx1 t
  unfold Gen.iblk
  rw [View.read_apply]
  show (Gen.V m c main_v1 : S16x2048x128.Idx → EReal) _ = _
  rw [V_main_v1]
  refine congrArg _ (funext fun a => Fin.ext ?_)
  match a with
  | ⟨0, _⟩ => show win0_1.index t (0 : Fin 3) * 1 + 1 * 0 = t.val / 8; omega
  | ⟨1, _⟩ => show win0_1.index t (1 : Fin 3) * 2048 + 1 * j.val = j.val; omega
  | ⟨2, _⟩ => show win0_1.index t (2 : Fin 3) * 128 + 1 * d.val = d.val; omega

theorem iblk2_apply (t : Fin cfg0.N) (j : Fin 2048) (d : Fin 128) :
    (Gen.iblk m c 2 t : S1x2048x128.Idx → EReal) (ix3 0 j d)
      = m ((c : Thread nD τ).loc main_arg2) (ix3 (bt t) j d) := by
  obtain ⟨e0, e1, e2⟩ := idx2 t
  unfold Gen.iblk
  rw [View.read_apply]
  show (Gen.V m c main_v2 : S16x2048x128.Idx → EReal) _ = _
  rw [V_main_v2]
  refine congrArg _ (funext fun a => Fin.ext ?_)
  match a with
  | ⟨0, _⟩ => show win0_2.index t (0 : Fin 3) * 1 + 1 * 0 = t.val / 8; omega
  | ⟨1, _⟩ => show win0_2.index t (1 : Fin 3) * 2048 + 1 * j.val = j.val; omega
  | ⟨2, _⟩ => show win0_2.index t (2 : Fin 3) * 128 + 1 * d.val = d.val; omega

theorem iblk3_apply (t : Fin cfg0.N) (r : Fin 512) (j : Fin 2048) :
    (Gen.iblk m c 3 t : S1x512x2048.Idx → EReal) (ix3 0 r j)
      = m ((c : Thread nD τ).loc main_arg3) (ix3 (bt t) (row t r) j) := by
  obtain ⟨e0, e1, e2⟩ := idx3 t
  unfold Gen.iblk
  rw [View.read_apply]
  show (Gen.V m c main_v3 : S16x2048x2048.Idx → EReal) _ = _
  rw [V_main_v3]
  refine congrArg _ (funext fun a => Fin.ext ?_)
  match a with
  | ⟨0, _⟩ => show win0_3.index t (0 : Fin 3) * 1 + 1 * 0 = t.val / 8; omega
  | ⟨1, _⟩ => show win0_3.index t (1 : Fin 3) * 512 + 1 * r.val = (t.val % 4) * 512 + r.val; omega
  | ⟨2, _⟩ => show win0_3.index t (2 : Fin 3) * 2048 + 1 * j.val = j.val; omega

/-! ## The blocks of the output windows, read through any array, at a point of phase 1 -/

theorem oblk4_read (G : S16x2048x2048.Idx → EReal) (t : Fin cfg0.N) (ht : 4 ≤ t.val % 8) (r : Fin 512) (j : Fin 2048) :
    (((cfg0.win 4).blk t).view.read (Elt Ideal) G : S1x512x2048.Idx → EReal) (ix3 0 r j)
      = G (ix3 (bt t) (row t r) j) := by
  obtain ⟨e0, e1, e2⟩ := idx4 t ht
  rw [View.read_apply]
  refine congrArg G (funext fun a => Fin.ext ?_)
  match a with
  | ⟨0, _⟩ => show win0_4.index t (0 : Fin 3) * 1 + 1 * 0 = t.val / 8; omega
  | ⟨1, _⟩ => show win0_4.index t (1 : Fin 3) * 512 + 1 * r.val = (t.val % 4) * 512 + r.val; omega
  | ⟨2, _⟩ => show win0_4.index t (2 : Fin 3) * 2048 + 1 * j.val = j.val; omega

theorem oblk5_read (G : S16x2048x128.Idx → EReal) (t : Fin cfg0.N) (ht : 4 ≤ t.val % 8) (r : Fin 512) (d : Fin 128) :
    (((cfg0.win 5).blk t).view.read (Elt Ideal) G : S1x512x128.Idx → EReal) (ix3 0 r d)
      = G (ix3 (bt t) (row t r) d) := by
  obtain ⟨e0, e1, e2⟩ := idx5 t ht
  rw [View.read_apply]
  refine congrArg G (funext fun a => Fin.ext ?_)
  match a with
  | ⟨0, _⟩ => show win0_5.index t (0 : Fin 3) * 1 + 1 * 0 = t.val / 8; omega
  | ⟨1, _⟩ => show win0_5.index t (1 : Fin 3) * 512 + 1 * r.val = (t.val % 4) * 512 + r.val; omega
  | ⟨2, _⟩ => show win0_5.index t (2 : Fin 3) * 128 + 1 * d.val = d.val; omega

/-! ## The covers: every entry of each output array lies in the block of a point that writes it back -/

/-- An index of the gate's array is in point t's block iff each coordinate is in the block's range on its axis. -/
theorem mem_blk4 (t : Fin cfg0.N) (i : S16x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4_0).slice (win0_4.rect t)).set ↔ _
  rw [View.set_slice_whole, Rect.mem_set_unit]
  exact Iff.rfl

/-- An index of the result's array is in point t's block iff each coordinate is in the block's range on its axis. -/
theorem mem_blk5 (t : Fin cfg0.N) (i : S16x2048x128.Idx) :
    i ∈ ((cfg0.win 5).blk t).view.set ↔ ∀ a : Fin 3, win0_5.index t a * S1x512x128.size a ≤ (i a).val
      ∧ (i a).val < win0_5.index t a * S1x512x128.size a + S1x512x128.size a := by
  show i ∈ ((View.whole main_v4_1).slice (win0_5.rect t)).set ↔ _
  rw [View.set_slice_whole, Rect.mem_set_unit]
  exact Iff.rfl

/-- The entry (b, x, ·) of the gate's array is written back by the point of batch b, phase 1 and tile x / 512. -/
theorem cover4_at (i : S16x2048x2048.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 2048 := (i 2).isLt
  have hN : cfg0.N = 128 := N_0
  obtain ⟨t, htv⟩ : ∃ t : Fin cfg0.N, t.val = 8 * (i 0).val + 4 + (i 1).val / 512 := ⟨⟨_, by omega⟩, rfl⟩
  have ht : 4 ≤ t.val % 8 := by omega
  obtain ⟨e0, e1, e2⟩ := idx4 t ht
  refine ⟨t, flush4_of_phase1 t ht, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The entry (b, x, ·) of the result's array is written back by the point of batch b, phase 1 and tile x / 512. -/
theorem cover5_at (i : S16x2048x128.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 128 := (i 2).isLt
  have hN : cfg0.N = 128 := N_0
  obtain ⟨t, htv⟩ : ∃ t : Fin cfg0.N, t.val = 8 * (i 0).val + 4 + (i 1).val / 512 := ⟨⟨_, by omega⟩, rfl⟩
  have ht : 4 ≤ t.val % 8 := by omega
  obtain ⟨e0, e1, e2⟩ := idx5 t ht
  refine ⟨t, flush5_of_phase1 t ht, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

/-- The gate's array is covered, in the form the whole-array theorem of the pipeline's write-backs takes. -/
theorem cover4 : ∀ i : ((cfg0.win 4).arr.view.loc (c.tc : Thread nD τ)).2.ty.Idx,
    ∃ t : Fin cfg0.N, (cfg0.win 4).flush t = true ∧ i ∈ ((cfg0.win 4).blk t).view.set :=
  fun i => cover4_at i

/-- The result's array is covered, in the same form. -/
theorem cover5 : ∀ i : ((cfg0.win 5).arr.view.loc (c.tc : Thread nD τ)).2.ty.Idx,
    ∃ t : Fin cfg0.N, (cfg0.win 5).flush t = true ∧ i ∈ ((cfg0.win 5).blk t).view.set :=
  fun i => cover5_at i

end Cert.KernelIdeal.Blocks

end
-- ==== Proof.GatedAttention.lean ====
/-
  Dual-axis masked softmax attention with elementwise gating, as one function of the argument arrays on the
  extended reals.

  For a batch `b`, a query row `i` and a key column `j`:
    score   s(b,i,j)   = Σ_d q(b,i,d) · k(b,j,d)
    column  C(b,j)     = sup_i s(b,i,j),      ec(b,i,j) = exp (s(b,i,j) − C(b,j)) · mask(b,i,j),   Zc(b,j) = Σ_i ec(b,i,j)
    row     R(b,i)     = sup_j s(b,i,j),      er(b,i,j) = exp (s(b,i,j) − R(b,i)) · mask(b,i,j),   Zr(b,i) = Σ_j er(b,i,j)
    gate    g(b,i,j)   = ec(b,i,j) / (Zc(b,j) + ε) · ( er(b,i,j) / (Zr(b,i) + ε) )
    result  o(b,i,d)   = Σ_j g(b,i,j) · v(b,j,d)
  with ε the one float literal both programs share (its word is never evaluated).

  The column statistics can also be accumulated over consecutive blocks of `B` query rows, keeping a running maximum
  `M` and a running sum `S` rescaled to the new maximum at each block: `colRun` is that recurrence, stated over
  sequences so that it mentions no program.
-/
import Idealize.ShloMosaic.PureOps.Ideal
import Idealize.ShloMosaic.Lib.ValueIdx

noncomputable section

namespace Cert.GatedAttention

open Idealize.ShloMosaic Idealize.ShloMosaic.ValueIdx

abbrev QKV : Shape := ⟨3, ![16, 2048, 128]⟩
abbrev SQ : Shape := ⟨3, ![16, 2048, 2048]⟩

variable (q k v : QKV.Idx → EReal) (mk : SQ.Idx → EReal)

/-- The shared additive constant of both denominators. -/
def eps : EReal := Ideal.ofBits .f32 0x2B8CBCCC#32

/-- Query row `i` against key row `j` of batch `b`. -/
def score (b : Fin 16) (i j : Fin 2048) : EReal := ∑ d : Fin 128, q (ix3 b i d) * k (ix3 b j d)

/-- The largest score of key column `j` over all queries. -/
def colMax (b : Fin 16) (j : Fin 2048) : EReal := Finset.univ.sup fun i : Fin 2048 => score q k b i j
/-- The largest score of query row `i` over all keys. -/
def rowMax (b : Fin 16) (i : Fin 2048) : EReal := Finset.univ.sup fun j : Fin 2048 => score q k b i j

def colExp (b : Fin 16) (i j : Fin 2048) : EReal := Ideal.exp (score q k b i j - colMax q k b j) * mk (ix3 b i j)
def rowExp (b : Fin 16) (i j : Fin 2048) : EReal := Ideal.exp (score q k b i j - rowMax q k b i) * mk (ix3 b i j)

def colSum (b : Fin 16) (j : Fin 2048) : EReal := ∑ i : Fin 2048, colExp q k mk b i j
def rowSum (b : Fin 16) (i : Fin 2048) : EReal := ∑ j : Fin 2048, rowExp q k mk b i j

/-- The gate: the column-normalised weight times the row-normalised weight. -/
def gate (b : Fin 16) (i j : Fin 2048) : EReal :=
  Ideal.div (colExp q k mk b i j) (colSum q k mk b j + eps) * Ideal.div (rowExp q k mk b i j) (rowSum q k mk b i + eps)

/-- The gated weights as an array. -/
def gateArr : SQ.Idx → EReal := fun x => gate q k mk (x 0) (x 1) (x 2)

/-- The result: the gated weights applied to the values. -/
def outArr : QKV.Idx → EReal := fun x => ∑ j : Fin 2048, gate q k mk (x 0) (x 1) j * v (ix3 (x 0) j (x 2))

/-- Running column statistics over consecutive blocks of `B` entries of a sequence `g` weighted by `w`: after `s`
    blocks, the running maximum and the running weighted sum of exponentials taken relative to that maximum. Each
    block raises the maximum to `M'`, rescales the old sum by `exp (M − M')` and adds the block's own terms. -/
def colRun (B : ℕ) (g w : ℕ → EReal) : ℕ → EReal × EReal
  | 0 => (⊥, 0)
  | s + 1 =>
    let p := colRun B g w s
    let M' := max p.1 (Finset.univ.sup fun r : Fin B => g (s * B + r.val))
    (M', p.2 * Ideal.exp (p.1 - M') + ∑ r : Fin B, w (s * B + r.val) * Ideal.exp (g (s * B + r.val) - M'))

end Cert.GatedAttention

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.LibSupBlocks.lean ====
/-
  Two facts about finite suprema and one about the extended reals, general in their types.

  * A supremum over the first a + B indices of Fin N is the supremum over the first a joined with the supremum over
    the block of B indices that follows them: what a running maximum accumulated block by block along an axis holds
    after each block. With a = 0 the first part is empty (its supremum is the least element); with a + B = N the
    left side is the supremum over every index.
  * A fold of max from the least element is that supremum.
  * On the extended reals, the sum of eight copies of one value divided by 8 is that value, with no finiteness
    assumed (both infinities survive the sum and the division), and zero minus a value is its negation.
-/
import Idealize.ShloMosaic.PureOps.Ideal

noncomputable section

namespace Idealize.ShloMosaic.SupBlocks

open Finset

section Lattice
variable {α : Type*} [SemilatticeSup α] [OrderBot α]

/-- The indices below `a + B` are those below `a` and the block `a, …, a + B - 1`. -/
theorem sup_filter_lt_add {N : ℕ} (g : Fin N → α) (a B : ℕ) (h : a + B ≤ N) :
    (univ.filter (fun i : Fin N => i.val < a + B)).sup g
      = (univ.filter (fun i : Fin N => i.val < a)).sup g ⊔ univ.sup (fun b : Fin B => g ⟨a + b.val, by omega⟩) := by
  apply le_antisymm
  · apply Finset.sup_le
    intro i hi
    have hi' : i.val < a + B := (Finset.mem_filter.mp hi).2
    by_cases hlt : i.val < a
    · exact le_sup_of_le_left (Finset.le_sup (f := g) (Finset.mem_filter.mpr ⟨Finset.mem_univ _, hlt⟩))
    · have hb : i.val - a < B := by omega
      have e : i = ⟨a + (⟨i.val - a, hb⟩ : Fin B).val, by have := i.isLt; omega⟩ := Fin.ext (by show i.val = a + (i.val - a); omega)
      refine le_sup_of_le_right ?_
      rw [e]
      exact Finset.le_sup (f := fun b : Fin B => g ⟨a + b.val, by omega⟩) (Finset.mem_univ (⟨i.val - a, hb⟩ : Fin B))
  · apply sup_le
    · apply Finset.sup_le
      intro i hi
      have hi' : i.val < a := (Finset.mem_filter.mp hi).2
      exact Finset.le_sup (f := g) (Finset.mem_filter.mpr ⟨Finset.mem_univ _, by omega⟩)
    · apply Finset.sup_le
      intro b _
      exact Finset.le_sup (f := g) (Finset.mem_filter.mpr ⟨Finset.mem_univ _, by show a + b.val < a + B; have := b.isLt; omega⟩)

/-- Below `0` there is no index. -/
theorem sup_filter_lt_zero {N : ℕ} (g : Fin N → α) : (univ.filter (fun i : Fin N => i.val < 0)).sup g = ⊥ := by
  rw [Finset.filter_false_of_mem (fun i _ => Nat.not_lt_zero _), Finset.sup_empty]

/-- Below `N` is every index. -/
theorem sup_filter_lt_all {N : ℕ} (g : Fin N → α) : (univ.filter (fun i : Fin N => i.val < N)).sup g = univ.sup g := by
  rw [Finset.filter_true_of_mem (fun i _ => i.isLt)]

end Lattice

/-- A fold of `max` from the least extended real is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Eight copies of one extended real, summed and divided by 8, give it back: a real number by arithmetic, an
    infinity because it survives both the sum and the product with a positive real. -/
theorem sum_eight_div_eight (X : EReal) : Ideal.div (∑ _k : Fin 8, X) ((8 : ℝ) : EReal) = X := by
  rw [Ideal.div_coe (by norm_num : (8 : ℝ) ≠ 0), Finset.sum_const, Finset.card_univ, Fintype.card_fin]
  induction X using EReal.rec with
  | bot =>
    have h8 : (8 : ℕ) • (⊥ : EReal) = ⊥ := by simp [succ_nsmul]
    rw [h8, EReal.bot_mul_coe_of_pos (by norm_num)]
  | coe x =>
    have h8 : (8 : ℕ) • ((x : ℝ) : EReal) = ((8 * x : ℝ) : EReal) := by
      rw [← EReal.coe_nsmul]
      congr 1
      rw [nsmul_eq_mul]
      norm_num
    rw [h8, ← EReal.coe_mul]
    congr 1
    ring
  | top =>
    have h8 : (8 : ℕ) • (⊤ : EReal) = ⊤ := by simp [succ_nsmul]
    rw [h8, EReal.top_mul_coe_of_pos (by norm_num)]

/-- Zero minus an extended real is its negation. -/
theorem zero_sub_eq_neg (y : EReal) : (0 : EReal) - y = -y := by
  rw [sub_eq_add_neg, zero_add]

end Idealize.ShloMosaic.SupBlocks

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.TileArithmetic.lean ====
/-
  The kernel body's arithmetic read at an index, on the extended reals.

  One step of the body works on a tile of 512 query rows against all 2048 key columns. Its values are pure
  functions of what the body loads: the query tile x0, the keys x1, the values x2, the mask tile x3, and the
  running column statistics (the maximum xm, read twice, and the sum xs). Each is read here entry by entry:

    score     S(r, j) = Σ_d x0(r, d) · x1(j, d)
    reset     the running maximum starts at −∞ and the running sum at 0
    maximum   m'(j)   = max (m(j)) (sup_r S(r, j))
    sum       s'(j)   = s(j) · exp (m(j) − m'(j)) + Σ_r x3(r, j) · exp (S(r, j) − m'(j))
    gate      g(r, j) = x3(r, j) · exp (S(r, j) − R(r)) / (Σ_j' x3(r, j') · exp (S(r, j') − R(r)) + ε)
                          · ( x3(r, j) · exp (S(r, j) − m(j)) / (s(j) + ε) ),     R(r) = sup_j' S(r, j')
    result    o(r, d) = Σ_j g(r, j) · x2(j, d)

  A change of float format is the identity on the extended reals, so the narrowing of the gate before the last
  product does not show.
-/
import proofs.«113338_j73452530696353_1_alg».proof.Proof.Gen.KernelIdeal.Skeleton
import proofs.«113338_j73452530696353_1_alg».proof.Proof.GatedAttention
import proofs.«113338_j73452530696353_1_alg».proof.Proof.LibMatmulNT
import proofs.«113338_j73452530696353_1_alg».proof.Proof.LibMatmulRows
import proofs.«113338_j73452530696353_1_alg».proof.Proof.LibReduceAt
import proofs.«113338_j73452530696353_1_alg».proof.Proof.LibRowMax
import proofs.«113338_j73452530696353_1_alg».proof.Proof.LibSupBlocks
import proofs.«113338_j73452530696353_1_alg».proof.Proof.LibKeepdims
import proofs.«113338_j73452530696353_1_alg».proof.Proof.LibVectorAsMatrix
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable (x0 : Vec Ideal S1x512x128 .bf16) (x1 x2 : Vec Ideal S1x2048x128 .bf16) (x3 : Vec Ideal S1x512x2048 .bf16)
  (xm xm' xs : Vec Ideal S1x2048 .f32)

/-! ### The two matrix products' dimension numbers -/

/-- The score product keeps the left operand's row as the result's row. -/
theorem score_lhs_row (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl

/-- The score product takes the right operand's row as the result's column. -/
theorem score_rhs_row (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl

/-! ### The score tile -/

/-- The score of query row r against key row j. -/
theorem score_apply (r : Fin 512) (j : Fin 2048) :
    k0_pay3 x0 x1 (ix2 r j) = ∑ d : Fin 128, x0 (ix3 0 r d) * x1 (ix3 0 j d) := by
  unfold k0_pay3
  refine (MatmulNT.matmul_zero_apply dot_S512x128_S2048x128_S512x2048_1_1_0_0_n_n none rfl rfl rfl rfl
    score_lhs_row score_rhs_row _ _ (ix2 r j)).trans ?_
  refine Finset.sum_congr rfl fun d _ => ?_
  show shapeCast S512x128 x0 shapeCasts_S1x512x128_S512x128 (ix2 r d)
      * shapeCast S2048x128 x1 shapeCasts_S1x2048x128_S2048x128 (ix2 j d) = _
  rw [shapeCast_1ab_ab_apply, shapeCast_1ab_ab_apply]

/-! ### The reset values -/

/-- The word the running maximum is reset to denotes −∞. -/
theorem neg_inf_eq : Ideal.ofBits .f32 0xFF800000#32 = ⊥ := by
  simp [Ideal.ofBits, Ideal.ieee]

/-- The running maximum is reset to −∞. -/
theorem reset_max_apply (j : Fin 2048) : k0_pay1 (F := Ideal) (ix2 0 j) = ⊥ :=
  neg_inf_eq

/-- The running sum is reset to 0. -/
theorem reset_sum_apply (j : Fin 2048) : k0_pay2 (F := Ideal) (ix2 0 j) = 0 :=
  Ideal.ofBits_zero_f32

/-! ### The running column statistics after a tile -/

/-- The exponential of an array, entry by entry. -/
theorem exp_apply {s : Shape} {φ : FTy} (a : FVec Ideal s φ) (i : s.Idx) : exp a i = Ideal.exp (a i) := rfl

/-- The new running maximum of key column j: the old one against the tile's largest score in that column. -/
theorem new_max_apply (j : Fin 2048) :
    k0_pay5 x0 x1 xm (ix2 0 j) = max (xm (ix2 0 j)) (Finset.univ.sup fun r : Fin 512 => k0_pay3 x0 x1 (ix2 r j)) := by
  unfold k0_pay5
  refine (maximumf_apply _ _ _).trans ?_
  refine congrArg (max (xm (ix2 0 j))) ?_
  refine (shapeCast_a_1a_apply _ _ 0 j).trans ?_
  refine (ReduceAt.col_max_apply (k0_pay3 x0 x1) _ reduces_S512x2048_S2048 _ _ j).trans ?_
  rw [neg_inf_eq, SupBlocks.fold_max_bot_eq_sup]

/-- The value stored as the running maximum is the new running maximum. -/
theorem stored_max_apply (j : Fin 2048) : k0_pay7 x0 x1 xm (ix2 0 j) = k0_pay5 x0 x1 xm (ix2 0 j) := by
  unfold k0_pay7
  exact congrFun (shapeCast_self _ _) _

/-- The new running sum of key column j: the old one rescaled to the new maximum, plus the tile's masked
    exponentials taken relative to the new maximum. -/
theorem new_sum_apply (j : Fin 2048) :
    k0_pay6 x0 x1 x3 xm xm' xs (ix2 0 j)
      = xs (ix2 0 j) * Ideal.exp (xm' (ix2 0 j) - k0_pay5 x0 x1 xm (ix2 0 j))
        + ∑ r : Fin 512, x3 (ix3 0 r j) * Ideal.exp (k0_pay3 x0 x1 (ix2 r j) - k0_pay5 x0 x1 xm (ix2 0 j)) := by
  unfold k0_pay6
  refine (congrFun (shapeCast_self _ _) _).trans ?_
  refine (addf_apply _ _ _).trans ?_
  refine congrArg₂ (· + ·) rfl ?_
  refine (shapeCast_a_1a_apply _ _ 0 j).trans ?_
  refine (ReduceAt.col_sum_apply _ _ reduces_S512x2048_S2048 _ _ j).trans ?_
  refine Finset.sum_congr rfl fun r _ => ?_
  refine (mulf_apply _ _ _).trans ?_
  refine congrArg₂ (· * ·) ?_ ?_
  · exact (extf_apply (ψ := .f32) (k0_pay4 x3) bitsLt_bf16_f32 (ix2 r j)).trans
      (shapeCast_1ab_ab_apply x3 shapeCasts_S1x512x2048_S512x2048 r j)
  · refine (exp_apply _ _).trans (congrArg Ideal.exp ?_)
    refine (subf_apply _ _ _).trans (congrArg (k0_pay3 x0 x1 (ix2 r j) - ·) ?_)
    exact broadcastTo_1b_ab_apply _ _ r j

end Cert.KernelIdeal.Tile

end
-- ==== Proof.RunningColumn.lean ====
/-
  The running column statistics accumulated block by block equal the one-shot statistics.

  For a sequence g weighted by w, the recurrence colRun keeps, after s blocks of B entries, a running maximum M and a
  running sum S of w n · exp (g n − M) over the entries seen so far. A new block raises the maximum to M', and the
  old sum is brought to the new maximum by the factor exp (M − M'):
      exp (g n − M) · exp (M − M') = exp (g n − M'),
  an identity of real numbers when M and M' are real, which they are as soon as one block of real entries has been
  seen (a finite nonempty supremum of real numbers is one of them). The factor exp (M − M') is a nonnegative real
  number, and a nonnegative real factor distributes over any finite sum of extended reals, so the weights need no
  hypothesis. Before the first block the running sum is 0 and 0 · x = 0 whatever x is.

  The invariant is stated over the initial segment of the naturals below s · B and moved to Fin (J · B) at the end.
-/
import proofs.«113338_j73452530696353_1_alg».proof.Proof.GatedAttention
import Mathlib.Algebra.BigOperators.Fin
import Mathlib.Data.EReal.Operations

noncomputable section

namespace Cert.GatedAttention

open Finset Idealize.ShloMosaic

/-- The supremum over the naturals below a + B is the supremum below a joined with that of the block a, …, a + B − 1. -/
theorem sup_range_add (g : ℕ → EReal) (a B : ℕ) :
    (range (a + B)).sup g = (range a).sup g ⊔ univ.sup (fun r : Fin B => g (a + r.val)) := by
  apply le_antisymm
  · apply Finset.sup_le
    intro n hn
    have hn' : n < a + B := mem_range.mp hn
    by_cases hlt : n < a
    · exact le_sup_of_le_left (Finset.le_sup (f := g) (mem_range.mpr hlt))
    · have hb : n - a < B := by omega
      have e : n = a + (⟨n - a, hb⟩ : Fin B).val := by show n = a + (n - a); omega
      refine le_sup_of_le_right ?_
      rw [e]
      exact Finset.le_sup (f := fun r : Fin B => g (a + r.val)) (mem_univ (⟨n - a, hb⟩ : Fin B))
  · apply sup_le
    · apply Finset.sup_le
      intro n hn
      have hn' : n < a := mem_range.mp hn
      exact Finset.le_sup (f := g) (mem_range.mpr (by omega))
    · apply Finset.sup_le
      intro r _
      exact Finset.le_sup (f := g) (mem_range.mpr (by have := r.isLt; omega))

/-- A supremum over Fin N of a sequence read at the index's value is the supremum over the naturals below N. -/
theorem sup_univ_eq_sup_range (g : ℕ → EReal) (N : ℕ) :
    univ.sup (fun i : Fin N => g i.val) = (range N).sup g := by
  apply le_antisymm
  · exact Finset.sup_le fun i _ => Finset.le_sup (f := g) (mem_range.mpr i.isLt)
  · exact Finset.sup_le fun n hn =>
      Finset.le_sup (f := fun i : Fin N => g i.val) (mem_univ (⟨n, mem_range.mp hn⟩ : Fin N))

/-- A finite nonempty supremum of real numbers is a real number. -/
theorem sup_range_real (g : ℕ → EReal) (N : ℕ) (hN : 0 < N) (hg : ∀ n < N, ∃ r : ℝ, g n = (r : EReal)) :
    ∃ m : ℝ, (range N).sup g = (m : EReal) := by
  obtain ⟨i, hi, h⟩ := Finset.exists_mem_eq_sup (range N) ⟨0, mem_range.mpr hN⟩ g
  obtain ⟨r, hr⟩ := hg i (mem_range.mp hi)
  exact ⟨r, h.trans hr⟩

/-- exp (x − m) · exp (m − m') = exp (x − m') for real m, m' and any extended real x. -/
theorem exp_sub_mul_exp_sub (x : EReal) (m m' : ℝ) :
    Ideal.exp (x - (m : EReal)) * Ideal.exp ((m : EReal) - (m' : EReal)) = Ideal.exp (x - (m' : EReal)) := by
  induction x using EReal.rec with
  | bot => rw [EReal.bot_sub, EReal.bot_sub, Ideal.exp_bot, zero_mul]
  | coe x =>
    rw [← EReal.coe_sub, ← EReal.coe_sub, ← EReal.coe_sub, Ideal.exp_coe, Ideal.exp_coe, Ideal.exp_coe,
      ← EReal.coe_mul, ← Real.exp_add]
    congr 2
    ring
  | top =>
    rw [EReal.top_sub_coe, EReal.top_sub_coe, Ideal.exp_top, ← EReal.coe_sub, Ideal.exp_coe,
      EReal.top_mul_coe_of_pos (Real.exp_pos _)]

/-- A nonnegative real factor distributes over a finite sum of extended reals. -/
theorem sum_mul_coe_of_nonneg {ι : Type*} (t : Finset ι) (a : ι → EReal) (c : ℝ) (hc : 0 ≤ c) :
    (∑ n ∈ t, a n) * (c : EReal) = ∑ n ∈ t, a n * (c : EReal) := by
  classical
  induction t using Finset.induction_on with
  | empty => simp
  | insert i t hi ih =>
    rw [Finset.sum_insert hi, Finset.sum_insert hi,
      EReal.right_distrib_of_nonneg_of_ne_top (EReal.coe_nonneg.mpr hc) (EReal.coe_ne_top c), ih]

/-- The sum of w n · exp (g n − m), brought from the real maximum m to the real maximum m'. -/
theorem sum_rescale_exp {ι : Type*} (t : Finset ι) (g w : ι → EReal) (m m' : ℝ) :
    (∑ n ∈ t, w n * Ideal.exp (g n - (m : EReal))) * Ideal.exp ((m : EReal) - (m' : EReal))
      = ∑ n ∈ t, w n * Ideal.exp (g n - (m' : EReal)) := by
  rw [← EReal.coe_sub, Ideal.exp_coe, sum_mul_coe_of_nonneg t _ _ (Real.exp_pos _).le]
  refine Finset.sum_congr rfl fun n _ => ?_
  rw [mul_assoc, ← Ideal.exp_coe, EReal.coe_sub, exp_sub_mul_exp_sub]

/-- After s blocks the recurrence holds the supremum and the weighted sum of exponentials of the entries below
    s · B, provided those entries of g are real numbers. -/
theorem colRun_eq_range (B : ℕ) (hB : 0 < B) (g w : ℕ → EReal) (s : ℕ)
    (hg : ∀ n < s * B, ∃ r : ℝ, g n = (r : EReal)) :
    colRun B g w s
      = ((range (s * B)).sup g, ∑ n ∈ range (s * B), w n * Ideal.exp (g n - (range (s * B)).sup g)) := by
  induction s with
  | zero => simp [colRun]
  | succ s ih =>
    have hle : s * B ≤ (s + 1) * B := Nat.mul_le_mul_right B (Nat.le_succ s)
    have ih' := ih fun n hn => hg n (lt_of_lt_of_le hn hle)
    have hM : max ((range (s * B)).sup g) (univ.sup fun r : Fin B => g (s * B + r.val))
        = (range ((s + 1) * B)).sup g := by
      rw [Nat.succ_mul, sup_range_add]
    show (let p := colRun B g w s
          let M' := max p.1 (univ.sup fun r : Fin B => g (s * B + r.val))
          (M', p.2 * Ideal.exp (p.1 - M') + ∑ r : Fin B, w (s * B + r.val) * Ideal.exp (g (s * B + r.val) - M'))) = _
    rw [ih']
    simp only []
    rw [hM]
    refine Prod.ext rfl ?_
    show (∑ n ∈ range (s * B), w n * Ideal.exp (g n - (range (s * B)).sup g))
          * Ideal.exp ((range (s * B)).sup g - (range ((s + 1) * B)).sup g)
        + ∑ r : Fin B, w (s * B + r.val) * Ideal.exp (g (s * B + r.val) - (range ((s + 1) * B)).sup g)
        = ∑ n ∈ range ((s + 1) * B), w n * Ideal.exp (g n - (range ((s + 1) * B)).sup g)
    obtain ⟨m', hm'⟩ := sup_range_real g ((s + 1) * B) (Nat.mul_pos (Nat.succ_pos s) hB) hg
    rw [hm']
    have hsplit : ∑ n ∈ range ((s + 1) * B), w n * Ideal.exp (g n - (m' : EReal))
        = ∑ n ∈ range (s * B), w n * Ideal.exp (g n - (m' : EReal))
          + ∑ r : Fin B, w (s * B + r.val) * Ideal.exp (g (s * B + r.val) - (m' : EReal)) := by
      rw [Nat.succ_mul, Finset.sum_range_add]
      congr 1
      exact Finset.sum_range fun x => w (s * B + x) * Ideal.exp (g (s * B + x) - (m' : EReal))
    rw [hsplit]
    congr 1
    rcases Nat.eq_zero_or_pos s with hs | hs
    · subst hs
      simp
    · obtain ⟨m, hm⟩ := sup_range_real g (s * B) (Nat.mul_pos hs hB)
        (fun n hn => hg n (lt_of_lt_of_le hn hle))
      rw [hm]
      exact sum_rescale_exp _ g w m m'

/-- The running column statistics after J blocks of B entries are the one-shot maximum and the one-shot weighted sum
    of exponentials over all J · B entries, when those entries of g are real numbers. -/
theorem colRun_eq_oneShot (J B : ℕ) (hB : 0 < B) (g w : ℕ → EReal)
    (hg : ∀ n < J * B, ∃ r : ℝ, g n = (r : EReal)) :
    colRun B g w J
      = (univ.sup (fun i : Fin (J * B) => g i.val),
         ∑ i : Fin (J * B), Ideal.exp (g i.val - univ.sup (fun i : Fin (J * B) => g i.val)) * w i.val) := by
  rw [colRun_eq_range B hB g w J hg, sup_univ_eq_sup_range]
  refine Prod.ext rfl ?_
  show ∑ n ∈ range (J * B), w n * Ideal.exp (g n - (range (J * B)).sup g)
      = ∑ i : Fin (J * B), Ideal.exp (g i.val - (range (J * B)).sup g) * w i.val
  rw [Finset.sum_range]
  exact Finset.sum_congr rfl fun i _ => mul_comm _ _

/-- The same with the number of entries named: N = J · B. -/
theorem colRun_eq_oneShot_of_eq (J B N : ℕ) (hN : J * B = N) (hB : 0 < B) (g w : ℕ → EReal)
    (hg : ∀ n < N, ∃ r : ℝ, g n = (r : EReal)) :
    colRun B g w J
      = (univ.sup (fun i : Fin N => g i.val),
         ∑ i : Fin N, Ideal.exp (g i.val - univ.sup (fun i : Fin N => g i.val)) * w i.val) := by
  subst hN
  exact colRun_eq_oneShot J B hB g w hg

/-- Four blocks of 512 entries: the running statistics are the one-shot statistics over the 2048 entries. -/
theorem colRun_four_blocks (g w : ℕ → EReal) (hg : ∀ n < 2048, ∃ r : ℝ, g n = (r : EReal)) :
    colRun 512 g w 4
      = (univ.sup (fun i : Fin 2048 => g i.val),
         ∑ i : Fin 2048, Ideal.exp (g i.val - univ.sup (fun i : Fin 2048 => g i.val)) * w i.val) :=
  colRun_eq_oneShot_of_eq 4 512 2048 (by norm_num) (by norm_num) g w hg

end Cert.GatedAttention

end
-- ==== Proof.ColumnSequences.lean ====
/-
  The scores and the mask entries of one key column, read as sequences indexed by the query row, and the running
  column statistics taken along them.

  colSeq and maskSeq list, for a batch b and a key column j, the score of each query row against j and the mask entry
  at (row, j); past the last row both are 0, a value that is never read. Along these sequences the running statistics
  after the four tiles of 512 rows are the column maximum and the column sum of the one-shot form, and each tile's
  step is the recurrence's defining equation with the sequences read at the tile's own rows.
-/
import proofs.«113338_j73452530696353_1_alg».proof.Proof.RunningColumn

noncomputable section

namespace Cert.GatedAttention

open Finset Idealize.ShloMosaic Idealize.ShloMosaic.ValueIdx

/-! ### The recurrence's defining equations, componentwise -/

section Recurrence
variable (B : ℕ) (g w : ℕ → EReal)

/-- Before any block the running maximum is the least element. -/
theorem colRun_zero_fst : (colRun B g w 0).1 = ⊥ := rfl

/-- Before any block the running sum is zero. -/
theorem colRun_zero_snd : (colRun B g w 0).2 = 0 := rfl

/-- A block raises the running maximum to the larger of the old maximum and the block's supremum. -/
theorem colRun_succ_fst (s : ℕ) :
    (colRun B g w (s + 1)).1 = max (colRun B g w s).1 (univ.sup fun r : Fin B => g (s * B + r.val)) := rfl

/-- A block rescales the old sum to the new maximum and adds its own terms. -/
theorem colRun_succ_snd (s : ℕ) :
    (colRun B g w (s + 1)).2
      = (colRun B g w s).2 * Ideal.exp ((colRun B g w s).1 - (colRun B g w (s + 1)).1)
        + ∑ r : Fin B, w (s * B + r.val) * Ideal.exp (g (s * B + r.val) - (colRun B g w (s + 1)).1) := rfl

end Recurrence

/-! ### One key column as sequences -/

variable (q k : QKV.Idx → EReal) (mk : SQ.Idx → EReal)

/-- The scores of the query rows against key column j of batch b, in row order; 0 past the last row. -/
def colSeq (b : Fin 16) (j : Fin 2048) : ℕ → EReal :=
  fun n => if h : n < 2048 then score q k b ⟨n, h⟩ j else 0

/-- The mask entries of key column j of batch b, in row order; 0 past the last row. -/
def maskSeq (b : Fin 16) (j : Fin 2048) : ℕ → EReal :=
  fun n => if h : n < 2048 then mk (ix3 b ⟨n, h⟩ j) else 0

/-- Below the number of rows the score sequence is the score. -/
theorem colSeq_of_lt (b : Fin 16) (j : Fin 2048) (n : ℕ) (h : n < 2048) :
    colSeq q k b j n = score q k b ⟨n, h⟩ j := dif_pos h

/-- Below the number of rows the mask sequence is the mask entry. -/
theorem maskSeq_of_lt (b : Fin 16) (j : Fin 2048) (n : ℕ) (h : n < 2048) :
    maskSeq mk b j n = mk (ix3 b ⟨n, h⟩ j) := dif_pos h

/-- At a row's own position the score sequence is that row's score. -/
theorem colSeq_val (b : Fin 16) (j : Fin 2048) (i : Fin 2048) : colSeq q k b j i.val = score q k b i j :=
  colSeq_of_lt q k b j i.val i.isLt

/-- At a row's own position the mask sequence is that row's mask entry. -/
theorem maskSeq_val (b : Fin 16) (j : Fin 2048) (i : Fin 2048) : maskSeq mk b j i.val = mk (ix3 b i j) :=
  maskSeq_of_lt mk b j i.val i.isLt

/-- Row r of tile s, for the four tiles of 512 rows: row s · 512 + r of the 2048. -/
abbrev tileRow (s : ℕ) (hs : s < 4) (r : Fin 512) : Fin 2048 :=
  ⟨s * 512 + r.val, by have := r.isLt; omega⟩

/-- The score sequence at position s · 512 + r is the score of row r of tile s. -/
theorem colSeq_tile (b : Fin 16) (j : Fin 2048) (s : ℕ) (hs : s < 4) (r : Fin 512) :
    colSeq q k b j (s * 512 + r.val) = score q k b (tileRow s hs r) j :=
  colSeq_of_lt q k b j _ _

/-- The mask sequence at position s · 512 + r is the mask entry of row r of tile s. -/
theorem maskSeq_tile (b : Fin 16) (j : Fin 2048) (s : ℕ) (hs : s < 4) (r : Fin 512) :
    maskSeq mk b j (s * 512 + r.val) = mk (ix3 b (tileRow s hs r) j) :=
  maskSeq_of_lt mk b j _ _

/-! ### The running statistics along a key column -/

/-- When every score is a real number, the running statistics of a key column after the four tiles are the column
    maximum and the column sum. -/
theorem colRun_colSeq_four (hs : ∀ b i j, ∃ r : ℝ, score q k b i j = (r : EReal)) (b : Fin 16) (j : Fin 2048) :
    colRun 512 (colSeq q k b j) (maskSeq mk b j) 4 = (colMax q k b j, colSum q k mk b j) := by
  rw [colRun_four_blocks (colSeq q k b j) (maskSeq mk b j)
    (fun n hn => by rw [colSeq_of_lt q k b j n hn]; exact hs b ⟨n, hn⟩ j)]
  simp only [colSeq_val, maskSeq_val]
  rfl

/-- Before the first tile: maximum ⊥. -/
theorem colRun_colSeq_zero_fst (b : Fin 16) (j : Fin 2048) :
    (colRun 512 (colSeq q k b j) (maskSeq mk b j) 0).1 = ⊥ := rfl

/-- Before the first tile: sum 0. -/
theorem colRun_colSeq_zero_snd (b : Fin 16) (j : Fin 2048) :
    (colRun 512 (colSeq q k b j) (maskSeq mk b j) 0).2 = 0 := rfl

/-- Tile s raises the running maximum of a key column to the larger of the old maximum and the largest score among
    the tile's rows. -/
theorem colRun_colSeq_succ_fst (b : Fin 16) (j : Fin 2048) (s : ℕ) (hs : s < 4) :
    (colRun 512 (colSeq q k b j) (maskSeq mk b j) (s + 1)).1
      = max (colRun 512 (colSeq q k b j) (maskSeq mk b j) s).1
          (univ.sup fun r : Fin 512 => score q k b (tileRow s hs r) j) := by
  rw [colRun_succ_fst]
  exact congrArg (max _) (Finset.sup_congr rfl fun r _ => colSeq_tile q k b j s hs r)

/-- Tile s rescales the old sum of a key column to the new maximum M' and adds the tile's rows, each mask entry times
    the exponential of its score relative to M'. Here M' is any name for the new maximum. -/
theorem colRun_colSeq_succ_snd_of (b : Fin 16) (j : Fin 2048) (s : ℕ) (hs : s < 4) (M' : EReal)
    (hM' : M' = max (colRun 512 (colSeq q k b j) (maskSeq mk b j) s).1
                  (univ.sup fun r : Fin 512 => score q k b (tileRow s hs r) j)) :
    (colRun 512 (colSeq q k b j) (maskSeq mk b j) (s + 1)).2
      = (colRun 512 (colSeq q k b j) (maskSeq mk b j) s).2
            * Ideal.exp ((colRun 512 (colSeq q k b j) (maskSeq mk b j) s).1 - M')
        + ∑ r : Fin 512, mk (ix3 b (tileRow s hs r) j) * Ideal.exp (score q k b (tileRow s hs r) j - M') := by
  have hM : M' = (colRun 512 (colSeq q k b j) (maskSeq mk b j) (s + 1)).1 :=
    hM'.trans (colRun_colSeq_succ_fst q k mk b j s hs).symm
  rw [colRun_succ_snd, hM]
  congr 1
  exact Finset.sum_congr rfl fun r _ => by rw [colSeq_tile q k b j s hs r, maskSeq_tile mk b j s hs r]

/-- The same with the new maximum written out. -/
theorem colRun_colSeq_succ_snd (b : Fin 16) (j : Fin 2048) (s : ℕ) (hs : s < 4) :
    (colRun 512 (colSeq q k b j) (maskSeq mk b j) (s + 1)).2
      = (colRun 512 (colSeq q k b j) (maskSeq mk b j) s).2
            * Ideal.exp ((colRun 512 (colSeq q k b j) (maskSeq mk b j) s).1
                - max (colRun 512 (colSeq q k b j) (maskSeq mk b j) s).1
                    (univ.sup fun r : Fin 512 => score q k b (tileRow s hs r) j))
        + ∑ r : Fin 512, mk (ix3 b (tileRow s hs r) j)
            * Ideal.exp (score q k b (tileRow s hs r) j
                - max (colRun 512 (colSeq q k b j) (maskSeq mk b j) s).1
                    (univ.sup fun r : Fin 512 => score q k b (tileRow s hs r) j)) :=
  colRun_colSeq_succ_snd_of q k mk b j s hs _ rfl

/-- Both components of a tile's step as one equation of pairs. -/
theorem colRun_colSeq_succ (b : Fin 16) (j : Fin 2048) (s : ℕ) (hs : s < 4) (M' : EReal)
    (hM' : M' = max (colRun 512 (colSeq q k b j) (maskSeq mk b j) s).1
                  (univ.sup fun r : Fin 512 => score q k b (tileRow s hs r) j)) :
    colRun 512 (colSeq q k b j) (maskSeq mk b j) (s + 1)
      = (M', (colRun 512 (colSeq q k b j) (maskSeq mk b j) s).2
              * Ideal.exp ((colRun 512 (colSeq q k b j) (maskSeq mk b j) s).1 - M')
            + ∑ r : Fin 512, mk (ix3 b (tileRow s hs r) j) * Ideal.exp (score q k b (tileRow s hs r) j - M')) :=
  Prod.ext ((colRun_colSeq_succ_fst q k mk b j s hs).trans hM'.symm)
    (colRun_colSeq_succ_snd_of q k mk b j s hs M' hM')

/-- A tile's step from named statistics: if the maximum and the sum before tile s are M and S, then after it they are
    M' = max M (largest score among the tile's rows) and S · exp (M − M') + Σ_r mask_r · exp (score_r − M'). -/
theorem colRun_colSeq_step (b : Fin 16) (j : Fin 2048) (s : ℕ) (hs : s < 4) (M S : EReal)
    (hp : colRun 512 (colSeq q k b j) (maskSeq mk b j) s = (M, S)) :
    colRun 512 (colSeq q k b j) (maskSeq mk b j) (s + 1)
      = (max M (univ.sup fun r : Fin 512 => score q k b (tileRow s hs r) j),
         S * Ideal.exp (M - max M (univ.sup fun r : Fin 512 => score q k b (tileRow s hs r) j))
           + ∑ r : Fin 512, mk (ix3 b (tileRow s hs r) j)
               * Ideal.exp (score q k b (tileRow s hs r) j
                   - max M (univ.sup fun r : Fin 512 => score q k b (tileRow s hs r) j))) := by
  have h := colRun_colSeq_succ q k mk b j s hs _ rfl
  rw [hp] at h
  exact h

end Cert.GatedAttention

end
-- ==== Proof.KernelIdealColumns.lean ====
/-
  The running column statistics the kernel carries are the specification's recurrence. At point t = 8·batch + 4·phase + tile
  the two scratch rows hold, lane by lane (key column j), the running maximum and running sum of the recurrence `colRun`
  over that batch's score column j after min (t mod 8 + 1, 4) blocks of 512 query rows: the first tile of phase 0 folds
  block 0 into (−∞, 0), each later tile of phase 0 folds its block into what the tile before left, and phase 1 keeps
  them. The scores of a tile are the specification's scores at the tile's rows, because each input block read at an
  index is the argument array read at the batch, the tile's row and the column.
-/
import proofs.«113338_j73452530696353_1_alg».proof.Proof.KernelIdealPieces
import proofs.«113338_j73452530696353_1_alg».proof.Proof.KernelIdealBlocks
import proofs.«113338_j73452530696353_1_alg».proof.Proof.TileArithmetic
import proofs.«113338_j73452530696353_1_alg».proof.Proof.ColumnSequences

set_option maxRecDepth 16384

noncomputable section

namespace Cert.KernelIdeal.Columns

open Idealize.ShloMosaic Idealize.ShloMosaic.TcCoe Idealize.ShloMosaic.ValueIdx Idealize.SL.Sem
open Cert.KernelIdeal Cert.KernelIdeal.Gen Cert.KernelIdeal.Blocks Cert.GatedAttention

variable (m : (ℓ : Loc nD τ sig) → Buf (Elt Ideal) ℓ) (c : Dev nD)

/-- The four argument arrays, as arrays of extended reals. -/
abbrev aq : QKV.Idx → EReal := m ((c : Thread nD τ).loc main_arg0)
abbrev ak : QKV.Idx → EReal := m ((c : Thread nD τ).loc main_arg1)
abbrev av : QKV.Idx → EReal := m ((c : Thread nD τ).loc main_arg2)
abbrev amk : SQ.Idx → EReal := m ((c : Thread nD τ).loc main_arg3)

/-- A tile's scores are the specification's scores at the tile's rows. -/
theorem tile_score (t : Fin cfg0.N) (r : Fin 512) (j : Fin 2048) :
    k0_pay3 (F := Ideal) (iblk m c 0 t) (iblk m c 1 t) (ix2 r j) = score (aq m c) (ak m c) (bt t) (row t r) j := by
  refine (Tile.score_apply (iblk m c 0 t) (iblk m c 1 t) r j).trans ?_
  unfold score
  refine Finset.sum_congr rfl fun d _ => ?_
  rw [iblk0_apply, iblk1_apply]

/-- One fold: if the scratch rows hold the recurrence after `s` blocks, the values the fold stores are the recurrence
    after `s + 1` blocks. -/
theorem fold_pair (t : Fin cfg0.N) (s : ℕ) (hs : s < 4) (hts : t.val % 4 = s) (xs0 xs1 : Vec Ideal S1x2048 .f32) (j : Fin 2048)
    (hp : colRun 512 (colSeq (aq m c) (ak m c) (bt t) j) (maskSeq (amk m c) (bt t) j) s = (xs0 (ix2 0 j), xs1 (ix2 0 j))) :
    colRun 512 (colSeq (aq m c) (ak m c) (bt t) j) (maskSeq (amk m c) (bt t) j) (s + 1)
      = (k0_pay7 (F := Ideal) (iblk m c 0 t) (iblk m c 1 t) xs0 (ix2 0 j),
         k0_pay6 (F := Ideal) (iblk m c 0 t) (iblk m c 1 t) (iblk m c 3 t) xs0 xs0 xs1 (ix2 0 j)) := by
  have hrow : ∀ r : Fin 512, tileRow s hs r = row t r := fun r =>
    Fin.ext (by show s * 512 + r.val = (t.val % 4) * 512 + r.val; rw [hts])
  have hM : k0_pay5 (F := Ideal) (iblk m c 0 t) (iblk m c 1 t) xs0 (ix2 0 j)
      = max (xs0 (ix2 0 j)) (Finset.univ.sup fun r : Fin 512 => score (aq m c) (ak m c) (bt t) (tileRow s hs r) j) := by
    refine (Tile.new_max_apply (iblk m c 0 t) (iblk m c 1 t) xs0 j).trans ?_
    refine congrArg (max (xs0 (ix2 0 j))) (Finset.sup_congr rfl fun r _ => ?_)
    rw [tile_score, hrow]
  rw [colRun_colSeq_step _ _ _ _ _ s hs _ _ hp]
  refine Prod.ext ?_ ?_
  · show _ = k0_pay7 (F := Ideal) (iblk m c 0 t) (iblk m c 1 t) xs0 (ix2 0 j)
    rw [Tile.stored_max_apply, hM]
  · show _ = k0_pay6 (F := Ideal) (iblk m c 0 t) (iblk m c 1 t) (iblk m c 3 t) xs0 xs0 xs1 (ix2 0 j)
    refine Eq.symm ((Tile.new_sum_apply (iblk m c 0 t) (iblk m c 1 t) (iblk m c 3 t) xs0 xs0 xs1 j).trans ?_)
    rw [hM]
    refine congrArg₂ (· + ·) rfl (Finset.sum_congr rfl fun r _ => ?_)
    rw [tile_score, iblk3_apply, hrow]

/-- How many blocks of its batch's query rows have been folded in after point `n`. -/
def foldsDone (n : ℕ) : ℕ := min (n % 8 + 1) 4

/-- THE INVARIANT: after every point the scratch rows hold the recurrence after `foldsDone` blocks, lane by lane. -/
theorem scratch_inv (n : ℕ) (hn : n < cfg0.N) (j : Fin 2048) :
    colRun 512 (colSeq (aq m c) (ak m c) (bt ⟨n, hn⟩) j) (maskSeq (amk m c) (bt ⟨n, hn⟩) j) (foldsDone n)
      = ((scrAt m c n hn).1 (ix2 0 j), (scrAt m c n hn).2 (ix2 0 j)) := by
  have hN : cfg0.N = 128 := N_0
  induction n with
  | zero =>
    have e := scrAt_first m c ⟨0, hn⟩ (Nat.zero_mod _)
    rw [show scrAt m c 0 hn = _ from e, maxFirst_eq, sumFirst_eq]
    exact fold_pair m c ⟨0, hn⟩ 0 (by decide) (Nat.zero_mod _) _ _ j
      (Prod.ext (Tile.reset_max_apply j).symm (Tile.reset_sum_apply j).symm)
  | succ n ih =>
    have hn' : n < cfg0.N := Nat.lt_of_succ_lt hn
    by_cases h0 : (n + 1) % 8 = 0
    · have e := scrAt_first m c ⟨n + 1, hn⟩ h0
      rw [show scrAt m c (n + 1) hn = _ from e, maxFirst_eq, sumFirst_eq]
      have hf : foldsDone (n + 1) = 0 + 1 := by unfold foldsDone; omega
      rw [hf]
      exact fold_pair m c ⟨n + 1, hn⟩ 0 (by decide) (by show (n + 1) % 4 = 0; omega) _ _ j
        (Prod.ext (Tile.reset_max_apply j).symm (Tile.reset_sum_apply j).symm)
    · have hb : bt ⟨n + 1, hn⟩ = bt ⟨n, hn'⟩ := Fin.ext (by show (n + 1) / 8 = n / 8; omega)
      by_cases h1 : (n + 1) % 8 < 4
      · have e := scrAt_fold m c ⟨n + 1, hn⟩ h0 h1
        rw [show scrAt m c (n + 1) hn = _ from e, maxFold_eq, sumFold_eq]
        have hf : foldsDone (n + 1) = (n + 1) % 8 + 1 := by unfold foldsDone; omega
        have hf' : foldsDone n = (n + 1) % 8 := by unfold foldsDone; omega
        rw [hf]
        refine fold_pair m c ⟨n + 1, hn⟩ ((n + 1) % 8) h1 (by show (n + 1) % 4 = (n + 1) % 8; omega) _ _ j ?_
        rw [hb, ← hf']
        exact ih hn'
      · have e := scrAt_emit m c ⟨n + 1, hn⟩ (by show 4 ≤ (n + 1) % 8; omega)
        rw [show scrAt m c (n + 1) hn = _ from e]
        have hf : foldsDone (n + 1) = foldsDone n := by unfold foldsDone; omega
        rw [hf, hb]
        exact ih hn'

/-- In phase 1 the scratch rows the body finds hold the specification's column maximum and column sum (the scores being
    real numbers). -/
theorem scratch_final (hreal : ∀ b i j, ∃ r : ℝ, score (aq m c) (ak m c) b i j = (r : EReal))
    (t : Fin cfg0.N) (h1 : 4 ≤ t.val % 8) (j : Fin 2048) :
    (scrBefore m c t).1 (ix2 0 j) = colMax (aq m c) (ak m c) (bt t) j
      ∧ (scrBefore m c t).2 (ix2 0 j) = colSum (aq m c) (ak m c) (amk m c) (bt t) j := by
  have hN : cfg0.N = 128 := N_0
  have hlt : t.val - 1 < cfg0.N := Nat.lt_of_le_of_lt (Nat.sub_le _ _) t.isLt
  have hb : bt ⟨t.val - 1, hlt⟩ = bt t := Fin.ext (by show (t.val - 1) / 8 = t.val / 8; omega)
  have hf : foldsDone (t.val - 1) = 4 := by unfold foldsDone; omega
  have e := scratch_inv m c (t.val - 1) hlt j
  rw [hf, hb, colRun_colSeq_four _ _ _ hreal] at e
  exact ⟨(congrArg Prod.fst e).symm, (congrArg Prod.snd e).symm⟩

end Cert.KernelIdeal.Columns

end
-- ==== Proof.TileGate.lean ====
/-
  The gated weights of one tile, read at a query row r of the tile and a key column j, on the extended reals:
  the row-normalised weight mask·exp (s − max over the row) / (row sum + ε), times the column-normalised weight
  mask·exp (s − column maximum) / (column sum + ε), with the column maximum and column sum read from the two rows the
  body is handed. A row lies whole within a tile, so its maximum and sum are taken inside the tile.
-/
import proofs.«113338_j73452530696353_1_alg».proof.Proof.Gen.KernelIdeal.Skeleton
import proofs.«113338_j73452530696353_1_alg».proof.Proof.GatedAttention
import proofs.«113338_j73452530696353_1_alg».proof.Proof.LibReduceAt
import proofs.«113338_j73452530696353_1_alg».proof.Proof.LibRowMax
import proofs.«113338_j73452530696353_1_alg».proof.Proof.LibSupBlocks
import proofs.«113338_j73452530696353_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable (x0 : Vec Ideal S1x512x128 .bf16) (x1 x2 : Vec Ideal S1x2048x128 .bf16) (x3 : Vec Ideal S1x512x2048 .bf16)
  (xm xm' xs : Vec Ideal S1x2048 .f32)

/-- The word of −∞. -/
theorem neg_inf_word : Ideal.ofBits .f32 0xFF800000#32 = ⊥ := by
  simp [Ideal.ofBits, Ideal.ieee]

/-- The mask tile, cast from its block, at (r, j). -/
theorem mask_at (r : Fin 512) (j : Fin 2048) : k0_pay4 x3 (ix2 r j) = x3 (ix3 0 r j) := by
  unfold k0_pay4
  exact shapeCast_1ab_ab_apply x3 _ r j

/-- A row maximum kept as a column and spread over the row reads, at (r, j), the supremum of the row. -/
theorem rowmax_at (V : FVec Ideal S512x2048 .f32) (h1 : FKind.Formats FTy.f32) (h2 : (0xFF800000#32 : BitVec 32) = FKind.maximumf.neutral FTy.f32 h1)
    (r : Fin 512) (j : Fin 2048) :
    broadcastTo S512x2048 (shapeCast S512x1 (multiReduction .maximumf [1] S512 V 0xFF800000#32 reduces_S512x2048_S512 h1 h2) shapeCasts_S512_S512x1)
        broadcasts_S512x1_S512x2048 (ix2 r j)
      = Finset.univ.sup fun j' : Fin 2048 => V (ix2 r j') := by
  refine (Keepdims.column_spread _ shapeCasts_S512_S512x1 broadcasts_S512x1_S512x2048 r j).trans ?_
  refine (RowMax.row_max_apply V _ reduces_S512x2048_S512 h1 h2 r).trans ?_
  rw [neg_inf_word, SupBlocks.fold_max_bot_eq_sup]

theorem gate_tile_apply (r : Fin 512) (j : Fin 2048) :
    k0_pay8 x0 x1 x3 xm xs (ix2 r j)
      = Ideal.div (x3 (ix3 0 r j) * Ideal.exp (k0_pay3 x0 x1 (ix2 r j) - Finset.univ.sup fun j' : Fin 2048 => k0_pay3 x0 x1 (ix2 r j')))
          ((∑ j' : Fin 2048, x3 (ix3 0 r j') * Ideal.exp (k0_pay3 x0 x1 (ix2 r j') - Finset.univ.sup fun j'' : Fin 2048 => k0_pay3 x0 x1 (ix2 r j''))) + Cert.GatedAttention.eps)
        * Ideal.div (x3 (ix3 0 r j) * Ideal.exp (k0_pay3 x0 x1 (ix2 r j) - xm (ix2 0 j))) (xs (ix2 0 j) + Cert.GatedAttention.eps) := by
  unfold k0_pay8
  unfold mulf divf subf addf exp extf
  dsimp only
  simp only [Ideal.mulf_def, Ideal.divf_def, Ideal.subf_def, Ideal.addf_def, Ideal.exp_def, Ideal.extf_def, Ideal.ofBits_def, broadcast_apply]
  refine congrArg₂ (· * ·) (congrArg₂ Ideal.div ?num1 ?den1) (congrArg₂ Ideal.div ?num2 ?den2)
  case num1 =>
    exact congrArg₂ (· * ·) (mask_at x3 r j) (congrArg Ideal.exp (congrArg₂ (· - ·) rfl (rowmax_at _ _ _ r j)))
  case den1 =>
    refine (Keepdims.broadcastTo_a1_ab_apply _ broadcasts_S512x1_S512x2048 r j).trans ?_
    (try dsimp only)
    refine congrArg₂ (· + ·) ?_ rfl
    refine (Keepdims.shapeCast_a_a1_apply _ shapeCasts_S512_S512x1 r 0).trans ?_
    refine (ReduceAt.row_sum_apply _ _ reduces_S512x2048_S512 _ _ r).trans ?_
    refine Finset.sum_congr rfl fun j' _ => ?_
    (try dsimp only)
    exact congrArg₂ (· * ·) (mask_at x3 r j') (congrArg Ideal.exp (congrArg₂ (· - ·) rfl (rowmax_at _ _ _ r j')))
  case num2 =>
    exact congrArg₂ (· * ·) (mask_at x3 r j) (congrArg Ideal.exp (congrArg₂ (· - ·) rfl (broadcastTo_1b_ab_apply xm _ r j)))
  case den2 =>
    refine (broadcastTo_1b_ab_apply _ broadcasts_S1x2048_S512x2048 r j).trans ?_
    rfl

end Cert.KernelIdeal.Tile

end
-- ==== Proof.TileResult.lean ====
/-
  The kernel body's two stored blocks read at an index, on the extended reals.

  The gate tile g(r, j) of 512 query rows by 2048 key columns is stored as a 1 by 512 by 2048 block, entry for
  entry. The result block is the gate tile applied to the values,

    o(r, d) = Σ_j g(r, j) · x2(j, d),

  a product of the tile's row r with column d of the 2048 by 128 value array; the gate's narrowing to a shorter
  float format before the product is the identity on the extended reals.
-/
import proofs.«113338_j73452530696353_1_alg».proof.Proof.Gen.KernelIdeal.Skeleton
import proofs.«113338_j73452530696353_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable (x0 : Vec Ideal S1x512x128 .bf16) (x1 x2 : Vec Ideal S1x2048x128 .bf16) (x3 : Vec Ideal S1x512x2048 .bf16)
  (xm xs : Vec Ideal S1x2048 .f32)

/-! ### The last product's dimension numbers -/

/-- The product with the values keeps the left operand's row as the result's row. -/
theorem result_lhs_row (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl

/-- The product with the values keeps the right operand's column as the result's column. -/
theorem result_rhs_col (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-! ### The stored blocks -/

/-- The stored gate block is the gate tile, entry for entry. -/
theorem gate_block_apply (r : Fin 512) (j : Fin 2048) :
    k0_pay9 x0 x1 x3 xm xs (ix3 0 r j) = k0_pay8 x0 x1 x3 xm xs (ix2 r j) := by
  unfold k0_pay9
  exact shapeCast_ab_1ab_apply _ _ 0 r j

/-- The stored result block: row r of the gate tile against column d of the values. -/
theorem result_block_apply (r : Fin 512) (d : Fin 128) :
    k0_pay10 x0 x1 x3 xm xs x2 (ix3 0 r d) = ∑ j : Fin 2048, k0_pay8 x0 x1 x3 xm xs (ix2 r j) * x2 (ix3 0 j d) := by
  unfold k0_pay10
  refine (shapeCast_ab_1ab_apply _ _ 0 r d).trans ?_
  refine (MatmulRows.matmul_zero_apply dot_S512x2048_S2048x128_S512x128_1_0_0_1_n_n none rfl rfl rfl rfl
    result_lhs_row result_rhs_col _ _ (ix2 r d)).trans ?_
  refine Finset.sum_congr rfl fun j _ => ?_
  refine congrArg₂ (· * ·) ?_ ?_
  · exact truncf_apply (ψ := .bf16) (k0_pay8 x0 x1 x3 xm xs) bitsLt_bf16_f32 (ix2 r j)
  · exact shapeCast_1ab_ab_apply x2 shapeCasts_S1x2048x128_S2048x128 j d

end Cert.KernelIdeal.Tile

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.RealScores.lean ====
/-
  The scores of real-valued queries and keys are real numbers.

  A score is a sum over the 128 feature coordinates of products q(b,i,d) · k(b,j,d). When every entry of q and of k
  is a real number, each product is the image of a real product, and a finite sum of images of reals is the image of
  the real sum: the score is a real number (neither +∞ nor -∞).
-/
import proofs.«113338_j73452530696353_1_alg».proof.Proof.GatedAttention
import proofs.«113338_j73452530696353_1_alg».proof.Proof.LibRealSum

noncomputable section

namespace Cert.GatedAttention

open Idealize.ShloMosaic Idealize.ShloMosaic.ValueIdx

/-- With every entry of q and k a real number, every score is a real number. -/
theorem score_real (q k : QKV.Idx → EReal)
    (hq : ∀ i, ∃ r : ℝ, q i = (r : EReal)) (hk : ∀ i, ∃ r : ℝ, k i = (r : EReal))
    (b : Fin 16) (i j : Fin 2048) : ∃ r : ℝ, score q k b i j = (r : EReal) := by
  choose a ha using hq
  choose c hc using hk
  refine ⟨∑ d : Fin 128, a (ix3 b i d) * c (ix3 b j d), ?_⟩
  unfold score
  simp only [ha, hc, ← EReal.coe_mul]
  exact Cert.Lib.RealSum.coe_sum Finset.univ fun d : Fin 128 => a (ix3 b i d) * c (ix3 b j d)

end Cert.GatedAttention

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteArguments.lean ====
/-
  The precondition "every argument array is finite", read back entrywise.

  The printed predicate is the conjunction of four tests, one per argument array: the and-reduction over all axes
  of the entrywise comparison |x| < +∞. The predicate's one result word is 1, so each of the four reductions is 1
  (a conjunction of two one-bit words is 1 exactly when both are), and a reduction that is 1 had a true comparison
  at every entry: every entry of every argument array is a real number (neither +∞ nor -∞).
-/
import proofs.«113338_j73452530696353_1_alg».proof.Defs
import proofs.«113338_j73452530696353_1_alg».proof.Proof.Gen.Pre_finite_inputs
import proofs.«113338_j73452530696353_1_alg».proof.Proof.LibFiniteEntry

noncomputable section

namespace Cert.FiniteArguments

open Idealize.ShloMosaic Idealize.SL.Sem Idealize.ShloMosaic.ValueIdx
open Cert.Lib.FiniteEntry

/-- If the printed finiteness predicate of four arrays is true, every entry of each array is a real number. -/
theorem entries_real [hPre_finite_inputs : Cert.Pre_finite_inputs.Facts]
    (q k v : FVec Ideal Cert.Pre_finite_inputs.S16x2048x128 .f32)
    (mk : FVec Ideal Cert.Pre_finite_inputs.S16x2048x2048 .f32)
    (h : Cert.Pre_finite_inputs.fn (F := Ideal) q k v mk = fun _ => 1#1) :
    (∀ i, ∃ r : ℝ, q i = (r : EReal)) ∧ (∀ i, ∃ r : ℝ, k i = (r : EReal))
      ∧ (∀ i, ∃ r : ℝ, v i = (r : EReal)) ∧ (∀ i, ∃ r : ℝ, mk i = (r : EReal)) := by
  have h0 := congrFun h ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨all_real q _ _ _ _ h1, all_real k _ _ _ _ h2, all_real v _ _ _ _ h3, all_real mk _ _ _ _ h4⟩

/-- At a memory of which the certificate's precondition holds, every entry of each of the four argument arrays
    of a device is a real number. -/
theorem arguments_real [hPre_finite_inputs : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  entries_real _ _ _ _ (hm c)

end Cert.FiniteArguments

end
-- ==== Proof.KernelIdealValue.lean ====
/-
  The kernel's two result arrays are the specification's.

  At a point of phase 1 (4 ≤ t % 8) the body stores the gate tile of its 512 query rows and that tile applied to the
  values. The tile's entry (r, j) is

      mask · exp (s − R) / (Σ_j' mask · exp (s − R) + ε)  ·  mask · exp (s − C) / (Z + ε)

  with s the tile's scores, R the row's largest score, and C, Z the column's running maximum and sum as the scratch
  rows hold them. The tile's scores are the specification's scores at rows (t % 4) · 512 + r of batch t / 8, the mask
  block is the mask array there, and after the four tiles of phase 0 the scratch rows hold the column's largest score
  and the column's sum (the scores being real numbers). Exchanging the two factors of each numerator and the two
  quotients, and the factors under the row's sum, gives the specification's gate; the result block is its product
  with the values. The points of phase 1 are exactly those that write the two output blocks back, and their blocks
  cover both arrays, so after the run each array holds the specification's array.
-/
import proofs.«113338_j73452530696353_1_alg».proof.Proof.KernelIdealColumns
import proofs.«113338_j73452530696353_1_alg».proof.Proof.TileGate
import proofs.«113338_j73452530696353_1_alg».proof.Proof.TileResult
import proofs.«113338_j73452530696353_1_alg».proof.Proof.RealScores
import proofs.«113338_j73452530696353_1_alg».proof.Proof.FiniteArguments
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Columns Cert.GatedAttention

variable (m : (ℓ : Loc nD τ sig) → Buf (Elt Ideal) ℓ) (ρ : Dev nD → PrngReg) (c : Dev nD)

/-! ## Two rearrangements of products on the extended reals -/

/-- The product of the two normalised weights, with the factors of each numerator and the two quotients exchanged. -/
theorem gate_factors (a e₁ e₂ z₁ z₂ ε : EReal) :
    Ideal.div (a * e₁) (z₁ + ε) * Ideal.div (a * e₂) (z₂ + ε)
      = Ideal.div (e₂ * a) (z₂ + ε) * Ideal.div (e₁ * a) (z₁ + ε) := by
  rw [mul_comm a e₁, mul_comm a e₂, mul_comm]

/-- A sum of products with the factors of each term exchanged. -/
theorem sum_factors {ι : Type*} [Fintype ι] (w E : ι → EReal) : ∑ j, w j * E j = ∑ j, E j * w j :=
  Finset.sum_congr rfl fun j _ => mul_comm _ _

/-! ## A tile of phase 1 computes the specification's gate -/

/-- The gate tile of a point of phase 1, at an entry, is the specification's gate at the entry's row and column. -/
theorem gate_tile (hreal : ∀ b i j, ∃ r : ℝ, score (aq m c) (ak m c) b i j = (r : EReal))
    (t : Fin cfg0.N) (h1 : 4 ≤ t.val % 8) (r : Fin 512) (j : Fin 2048) :
    k0_pay8 (F := Ideal) (iblk m c 0 t) (iblk m c 1 t) (iblk m c 3 t) (scrBefore m c t).1 (scrBefore m c t).2 (ix2 r j)
      = gate (aq m c) (ak m c) (amk m c) (bt t) (row t r) j := by
  obtain ⟨hM, hS⟩ := scratch_final m c hreal t h1 j
  refine (Tile.gate_tile_apply (x0 := iblk m c 0 t) (x1 := iblk m c 1 t) (x3 := iblk m c 3 t) (xm := (scrBefore m c t).1) (xs := (scrBefore m c t).2) r j).trans ?_
  simp only [tile_score m c t, iblk3_apply m c t]
  rw [hM, hS]
  unfold gate colExp rowExp rowSum rowMax
  rw [sum_factors]
  exact gate_factors _ _ _ _ _ _

/-! ## What the points of phase 1 write back -/

/-- A point that writes the gate's block back writes the specification's gated weights read through its block. -/
theorem flushed4_eq (hreal : ∀ b i j, ∃ r : ℝ, score (aq m c) (ak m c) b i j = (r : EReal))
    (t : Fin cfg0.N) (hf : (cfg0.win 4).flush t = true) :
    (dats m 0 c).flushed 4 t
      = ((cfg0.win 4).blk t).view.read (Elt Ideal) (gateArr (aq m c) (ak m c) (amk m c)) := by
  have h1 := phase1_of_flush4 t hf
  refine funext fun (y : S1x512x2048.Idx) => ?_
  obtain ⟨u, r, j, rfl⟩ : ∃ (u : Fin 1) (r : Fin 512) (j : Fin 2048), y = ix3 u r j := ⟨y 0, y 1, y 2, eq_ix3 y⟩
  obtain rfl : u = 0 := Subsingleton.elim _ _
  show (cfg0.win 4).cut (grid0.coords t) ((dats m 0 c).after 4 t) (ix3 0 r j) = _
  rw [after0_4]
  show gateAt m c t (ix3 0 r j) = _
  refine (congrFun (show gateAt m c t = gateEmit m c t h1 (scrBefore m c t).1 (scrBefore m c t).2 from dif_pos h1) (ix3 0 r j)).trans ?_
  refine (congrFun (gateEmit_eq m c t h1 (scrBefore m c t).1 (scrBefore m c t).2) (ix3 0 r j)).trans ?_
  refine (Tile.gate_block_apply (x0 := iblk m c 0 t) (x1 := iblk m c 1 t) (x3 := iblk m c 3 t) (xm := (scrBefore m c t).1) (xs := (scrBefore m c t).2) r j).trans ?_
  refine (gate_tile m c hreal t h1 r j).trans ?_
  exact (oblk4_read (gateArr (aq m c) (ak m c) (amk m c)) t h1 r j).symm

/-- A point that writes the result's block back writes the specification's result read through its block. -/
theorem flushed5_eq (hreal : ∀ b i j, ∃ r : ℝ, score (aq m c) (ak m c) b i j = (r : EReal))
    (t : Fin cfg0.N) (hf : (cfg0.win 5).flush t = true) :
    (dats m 0 c).flushed 5 t
      = ((cfg0.win 5).blk t).view.read (Elt Ideal) (outArr (aq m c) (ak m c) (av m c) (amk m c)) := by
  have h1 := phase1_of_flush5 t hf
  refine funext fun (y : S1x512x128.Idx) => ?_
  obtain ⟨u, r, d, rfl⟩ : ∃ (u : Fin 1) (r : Fin 512) (d : Fin 128), y = ix3 u r d := ⟨y 0, y 1, y 2, eq_ix3 y⟩
  obtain rfl : u = 0 := Subsingleton.elim _ _
  show (cfg0.win 5).cut (grid0.coords t) ((dats m 0 c).after 5 t) (ix3 0 r d) = _
  rw [after0_5]
  show outAt m c t (ix3 0 r d) = _
  refine (congrFun (show outAt m c t = outEmit m c t h1 (scrBefore m c t).1 (scrBefore m c t).2 from dif_pos h1) (ix3 0 r d)).trans ?_
  refine (congrFun (outEmit_eq m c t h1 (scrBefore m c t).1 (scrBefore m c t).2) (ix3 0 r d)).trans ?_
  refine (Tile.result_block_apply (x0 := iblk m c 0 t) (x1 := iblk m c 1 t) (x2 := iblk m c 2 t) (x3 := iblk m c 3 t) (xm := (scrBefore m c t).1) (xs := (scrBefore m c t).2) r d).trans ?_
  refine (Finset.sum_congr rfl fun j _ => ?_).trans (oblk5_read (outArr (aq m c) (ak m c) (av m c) (amk m c)) t h1 r d).symm
  exact congrArg₂ (· * ·) (gate_tile m c hreal t h1 r j) (iblk2_apply m c t j d)

/-! ## The two arrays after the run -/

/-- The gate's array ends holding the specification's gated weights. -/
theorem final_gate (hreal : ∀ b i j, ∃ r : ℝ, score (aq m c) (ak m c) b i j = (r : EReal)) :
    (dats m 0 c).arrAt 4 cfg0.N = gateArr (aq m c) (ak m c) (amk m c) :=
  (dats m 0 c).arrAt_eq_of_cover 4 (gateArr (aq m c) (ak m c) (amk m c)) (flushed4_eq m c hreal) (cover4 c)

/-- The result's array ends holding the specification's result. -/
theorem final_out (hreal : ∀ b i j, ∃ r : ℝ, score (aq m c) (ak m c) b i j = (r : EReal)) :
    (dats m 0 c).arrAt 5 cfg0.N = outArr (aq m c) (ak m c) (av m c) (amk m c) :=
  (dats m 0 c).arrAt_eq_of_cover 5 (outArr (aq m c) (ak m c) (av m c) (amk m c)) (flushed5_eq m c hreal) (cover5 c)

/-! ## The run -/

/-- Every weakly fair execution of the kernel's program from a memory whose argument arrays are finite terminates
    with the result array at the gated weights applied to the values, the gate array at the gated weights, and the
    argument arrays unchanged. -/
theorem kernel_run [hKernelIdeal : Cert.KernelIdeal.Facts] [hPre_finite_inputs : Cert.Pre_finite_inputs.Facts]
    (hm : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v4_1) = outArr (aq m c) (ak m c) (av m c) (amk m c)
      ∧ r.2.mem ((c.tc : Thread nD τ).loc main_v4_0) = gateArr (aq m c) (ak m c) (amk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have hreal : ∀ b i j, ∃ x : ℝ, score (aq m c) (ak m c) b i j = (x : EReal) :=
      score_real (aq m c) (ak m c) (Cert.FiniteArguments.arguments_real m hm c).1 (Cert.FiniteArguments.arguments_real m hm c).2.1
    ⟨((h c).1 5).trans (final_out m c hreal), ((h c).1 4).trans (final_gate m c hreal),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (Gen.run_main (F := Ideal) m ρ)

end Cert.KernelIdeal.Result

end
-- ==== Proof.ReferenceIsSpec.lean ====
/-
  The reference's result arrays are the specification's: the host program's operations, read one at a time at an index,
  compose to the gated weights and to their product with the values.

  Each stage is read at explicit coordinates (batch b, query row i, key column j, feature d). The first product is the
  score; the maximum over the queries' axis (a fold of max from the word of −∞, the least extended real) is the
  column's supremum, and the maximum over the keys' axis the row's; the two broadcasts that follow put a column's
  statistic back at (b, i, j) from (b, j), a row's from (b, i); the float sums start from the zero word. The shared
  additive constant is carried as its word and never evaluated. The order of the factors is the program's own, which
  is the order the specification is written in, so no law of arithmetic is used.
-/
import proofs.«113338_j73452530696353_1_alg».proof.Proof.Gen.ReferenceIdeal.Read
import proofs.«113338_j73452530696353_1_alg».proof.Proof.GatedAttention
import proofs.«113338_j73452530696353_1_alg».proof.Proof.LibReduceAt
import proofs.«113338_j73452530696353_1_alg».proof.Proof.LibSupBlocks
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.AsSpec

open Idealize.ShloMosaic Idealize.ShloMosaic.ValueIdx Cert.GatedAttention Cert.ReferenceIdeal Cert.ReferenceIdeal.Gen

variable (q k v : S16x2048x128.Idx → EReal) (mk : S16x2048x2048.Idx → EReal)

/-- The least extended real is what the maximum's initial word denotes. -/
theorem neg_inf_eq : Ideal.ofBits .f32 0xFF800000#32 = ⊥ := by
  simp [Ideal.ofBits, Ideal.ieee]

theorem lidx_v0 (b : Fin 16) (i j : Fin 2048) (d : Fin 128) : Read.lidx_main_v0 (ix3 b i j) d = ix3 b i d :=
  funext fun a => Fin.ext (by match a with | ⟨0, _⟩ => rfl | ⟨1, _⟩ => rfl | ⟨2, _⟩ => rfl)

theorem ridx_v0 (b : Fin 16) (i j : Fin 2048) (d : Fin 128) : Read.ridx_main_v0 (ix3 b i j) d = ix3 b j d :=
  funext fun a => Fin.ext (by match a with | ⟨0, _⟩ => rfl | ⟨1, _⟩ => rfl | ⟨2, _⟩ => rfl)

/-- The first product, at an entry, is the score. -/
theorem v0_at (b : Fin 16) (i j : Fin 2048) :
    Read.val_main_v0 (F := Ideal) q k (ix3 b i j) = score q k b i j := by
  rw [Read.val_main_v0_apply]
  unfold score
  refine Finset.sum_congr rfl fun d _ => ?_
  rw [lidx_v0, ridx_v0]

/-- The maximum over the queries' axis, at an entry, is the column's largest score. -/
theorem v1_at (b : Fin 16) (j : Fin 2048) :
    Read.val_main_v1 (F := Ideal) q k (ix2 b j) = colMax q k b j := by
  unfold Read.val_main_v1 colMax
  haveI : Std.Commutative (FloatOps.maximumf (F := Ideal) (φ := .f32)) := ⟨max_comm⟩
  haveI : Std.Associative (FloatOps.maximumf (F := Ideal) (φ := .f32)) := ⟨max_assoc⟩
  rw [ReduceAt.host_reduce_middle_apply (FloatOps.maximumf (F := Ideal) (φ := .f32)) _ _ _ _ (by decide) b j,
    Read.val_main_cst_apply, Ideal.ofBits_def, neg_inf_eq]
  simp only [v0_at]
  exact SupBlocks.fold_max_bot_eq_sup Finset.univ fun i => score q k b i j

/-- The maximum over the keys' axis, at an entry, is the row's largest score. -/
theorem v13_at (b : Fin 16) (i : Fin 2048) :
    Read.val_main_v13 (F := Ideal) q k (ix2 b i) = rowMax q k b i := by
  unfold Read.val_main_v13 rowMax
  haveI : Std.Commutative (FloatOps.maximumf (F := Ideal) (φ := .f32)) := ⟨max_comm⟩
  haveI : Std.Associative (FloatOps.maximumf (F := Ideal) (φ := .f32)) := ⟨max_assoc⟩
  rw [ReduceAt.host_reduce_last_apply (FloatOps.maximumf (F := Ideal) (φ := .f32)) _ _ _ _ (by decide) b i,
    Read.val_main_cst_2_apply, Ideal.ofBits_def, neg_inf_eq]
  simp only [v0_at]
  exact SupBlocks.fold_max_bot_eq_sup Finset.univ fun j => score q k b i j

theorem idx_v2_v3 (b : Fin 16) (i j : Fin 2048) : Read.idx_main_v2 (Read.idx_main_v3 (ix3 b i j)) = ix2 b j :=
  funext fun a => Fin.ext (by match a with | ⟨0, _⟩ => rfl | ⟨1, _⟩ => rfl)

/-- The column weight before normalisation. -/
theorem v6_at (b : Fin 16) (i j : Fin 2048) :
    Read.val_main_v6 (F := Ideal) q k mk (ix3 b i j) = colExp q k mk b i j := by
  rw [Read.val_main_v6_apply, Read.val_main_v5_apply, Read.val_main_v4_apply, Read.val_main_v3_apply,
    Read.val_main_v2_apply, idx_v2_v3, v0_at, v1_at]
  rfl

theorem idx_v7 (b : Fin 16) (j i : Fin 2048) : Read.idx_main_v7 (ix2 b j) i = ix3 b i j :=
  funext fun a => Fin.ext (by match a with | ⟨0, _⟩ => rfl | ⟨1, _⟩ => rfl | ⟨2, _⟩ => rfl)

/-- The column's normaliser: the sum of its weights over the queries. -/
theorem v7_at (b : Fin 16) (j : Fin 2048) :
    Read.val_main_v7 (F := Ideal) q k mk (ix2 b j) = colSum q k mk b j := by
  rw [Read.val_main_v7_apply, Read.val_main_cst_0_apply, Ideal.ofBits_def, Ideal.ofBits_zero_f32, zero_add]
  unfold colSum
  refine Finset.sum_congr rfl fun i _ => ?_
  rw [idx_v7, v6_at]

theorem idx_v8_v11 (b : Fin 16) (i j : Fin 2048) : Read.idx_main_v8 (Read.idx_main_v11 (ix3 b i j)) = ix2 b j :=
  funext fun a => Fin.ext (by match a with | ⟨0, _⟩ => rfl | ⟨1, _⟩ => rfl)

/-- The column-normalised weight. -/
theorem v12_at (b : Fin 16) (i j : Fin 2048) :
    Read.val_main_v12 (F := Ideal) q k mk (ix3 b i j)
      = Ideal.div (colExp q k mk b i j) (colSum q k mk b j + eps) := by
  rw [Read.val_main_v12_apply, Read.val_main_v11_apply, Read.val_main_v10_apply, Read.val_main_v8_apply,
    Read.val_main_v9_apply, Read.val_main_cst_1_apply, idx_v8_v11, v6_at, v7_at]
  rfl

theorem idx_v14_v15 (b : Fin 16) (i j : Fin 2048) : Read.idx_main_v14 (Read.idx_main_v15 (ix3 b i j)) = ix2 b i :=
  funext fun a => Fin.ext (by match a with | ⟨0, _⟩ => rfl | ⟨1, _⟩ => rfl)

/-- The row weight before normalisation. -/
theorem v18_at (b : Fin 16) (i j : Fin 2048) :
    Read.val_main_v18 (F := Ideal) q k mk (ix3 b i j) = rowExp q k mk b i j := by
  rw [Read.val_main_v18_apply, Read.val_main_v17_apply, Read.val_main_v16_apply, Read.val_main_v15_apply,
    Read.val_main_v14_apply, idx_v14_v15, v0_at, v13_at]
  rfl

theorem idx_v19 (b : Fin 16) (i j : Fin 2048) : Read.idx_main_v19 (ix2 b i) j = ix3 b i j :=
  funext fun a => Fin.ext (by match a with | ⟨0, _⟩ => rfl | ⟨1, _⟩ => rfl | ⟨2, _⟩ => rfl)

/-- The row's normaliser: the sum of its weights over the keys. -/
theorem v19_at (b : Fin 16) (i : Fin 2048) :
    Read.val_main_v19 (F := Ideal) q k mk (ix2 b i) = rowSum q k mk b i := by
  rw [Read.val_main_v19_apply, Read.val_main_cst_3_apply, Ideal.ofBits_def, Ideal.ofBits_zero_f32, zero_add]
  unfold rowSum
  refine Finset.sum_congr rfl fun j _ => ?_
  rw [idx_v19, v18_at]

theorem idx_v20_v23 (b : Fin 16) (i j : Fin 2048) : Read.idx_main_v20 (Read.idx_main_v23 (ix3 b i j)) = ix2 b i :=
  funext fun a => Fin.ext (by match a with | ⟨0, _⟩ => rfl | ⟨1, _⟩ => rfl)

/-- The row-normalised weight. -/
theorem v24_at (b : Fin 16) (i j : Fin 2048) :
    Read.val_main_v24 (F := Ideal) q k mk (ix3 b i j)
      = Ideal.div (rowExp q k mk b i j) (rowSum q k mk b i + eps) := by
  rw [Read.val_main_v24_apply, Read.val_main_v23_apply, Read.val_main_v22_apply, Read.val_main_v20_apply,
    Read.val_main_v21_apply, Read.val_main_cst_4_apply, idx_v20_v23, v18_at, v19_at]
  rfl

/-- The gate, at an entry. -/
theorem v25_at (b : Fin 16) (i j : Fin 2048) :
    Read.val_main_v25 (F := Ideal) q k mk (ix3 b i j) = gate q k mk b i j := by
  rw [Read.val_main_v25_apply, v12_at, v24_at]
  rfl

/-- The reference's gated weights are the specification's. -/
theorem gate_is_spec : Read.val_main_v25 (F := Ideal) q k mk = gateArr q k mk := by
  funext x
  obtain ⟨b, i, j, rfl⟩ : ∃ (b : Fin 16) (i j : Fin 2048), x = ix3 b i j := ⟨x 0, x 1, x 2, eq_ix3 x⟩
  exact v25_at q k mk b i j

theorem lidx_v26 (b : Fin 16) (i : Fin 2048) (d : Fin 128) (j : Fin 2048) :
    Read.lidx_main_v26 (ix3 b i d) j = ix3 b i j :=
  funext fun a => Fin.ext (by match a with | ⟨0, _⟩ => rfl | ⟨1, _⟩ => rfl | ⟨2, _⟩ => rfl)

theorem ridx_v26 (b : Fin 16) (i : Fin 2048) (d : Fin 128) (j : Fin 2048) :
    Read.ridx_main_v26 (ix3 b i d) j = ix3 b j d :=
  funext fun a => Fin.ext (by match a with | ⟨0, _⟩ => rfl | ⟨1, _⟩ => rfl | ⟨2, _⟩ => rfl)

/-- The reference's result is the specification's: the gated weights applied to the values. -/
theorem out_is_spec : Read.val_main_v26 (F := Ideal) q k v mk = outArr q k v mk := by
  funext x
  obtain ⟨b, i, d, rfl⟩ : ∃ (b : Fin 16) (i : Fin 2048) (d : Fin 128), x = ix3 b i d := ⟨x 0, x 1, x 2, eq_ix3 x⟩
  rw [Read.val_main_v26_apply]
  unfold outArr
  refine Finset.sum_congr rfl fun j _ => ?_
  rw [lidx_v26, ridx_v26, v25_at]

section Run
open Idealize.ShloMosaic.TcCoe Idealize.SL.Sem Idealize.ShloMosaic.StableHlo

/-- The reference's run, with its two results stated as the specification's arrays of the arguments' launch contents. -/
theorem run_is_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = outArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v25)
          = gateArr (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨by rw [(h c).1, Read.val_main_v26_eq, out_is_spec], by rw [(h c).2.1, Read.val_main_v25_eq, gate_is_spec], (h c).2.2⟩)
    (Value.run (F := Ideal) m ρ)

end Run

end Cert.ReferenceIdeal.AsSpec

end
-- ==== Proof.LibRunningSoftmax.lean ====
/-
  GENERAL LEMMAS — the online (block by block) softmax statistics equal the one-shot statistics, on the extended reals.

  For a sequence g weighted by w, `colRun B g w s` is the pair (running maximum M, running sum S of w n · exp (g n − M))
  after s consecutive blocks of B entries, each block raising the maximum to M' and rescaling the old sum by
  exp (M − M') before adding its own terms — the accumulation a flash-attention-style kernel carries in scratch across
  grid points. Main theorems: `colRun_eq_range` (the invariant after s blocks, sums over Finset.range, summand w · exp),
  `colRun_eq_oneShot` / `colRun_eq_oneShot_of_eq` (after J blocks of B entries with J·B = N: the supremum over Fin N and
  ∑ exp (g − sup) · w), for g real-valued below J·B and ANY extended-real weights w (a nonnegative real factor distributes
  over a finite sum of extended reals), any J and 0 < B. Supporting: `sup_range_add`, `sup_univ_eq_sup_range`,
  `sup_range_real`, `exp_sub_mul_exp_sub`, `sum_mul_coe_of_nonneg`, `sum_rescale_exp`.
-/
import Idealize.ShloMosaic.PureOps.Ideal
import Mathlib.Algebra.BigOperators.Fin
import Mathlib.Data.EReal.Operations

noncomputable section

namespace Idealize.ShloMosaic.RunningSoftmax

/-- Running statistics over consecutive blocks of `B` entries of a sequence `g` weighted by `w`: after `s` blocks, the running
    maximum and the running weighted sum of exponentials taken relative to that maximum. Each block raises the maximum to
    `M'`, rescales the old sum by `exp (M − M')` and adds the block's own terms. -/
def colRun (B : ℕ) (g w : ℕ → EReal) : ℕ → EReal × EReal
  | 0 => (⊥, 0)
  | s + 1 =>
    let p := colRun B g w s
    let M' := max p.1 (Finset.univ.sup fun r : Fin B => g (s * B + r.val))
    (M', p.2 * Ideal.exp (p.1 - M') + ∑ r : Fin B, w (s * B + r.val) * Ideal.exp (g (s * B + r.val) - M'))

open Finset Idealize.ShloMosaic

/-- The supremum over the naturals below a + B is the supremum below a joined with that of the block a, …, a + B − 1. -/
theorem sup_range_add (g : ℕ → EReal) (a B : ℕ) :
    (range (a + B)).sup g = (range a).sup g ⊔ univ.sup (fun r : Fin B => g (a + r.val)) := by
  apply le_antisymm
  · apply Finset.sup_le
    intro n hn
    have hn' : n < a + B := mem_range.mp hn
    by_cases hlt : n < a
    · exact le_sup_of_le_left (Finset.le_sup (f := g) (mem_range.mpr hlt))
    · have hb : n - a < B := by omega
      have e : n = a + (⟨n - a, hb⟩ : Fin B).val := by show n = a + (n - a); omega
      refine le_sup_of_le_right ?_
      rw [e]
      exact Finset.le_sup (f := fun r : Fin B => g (a + r.val)) (mem_univ (⟨n - a, hb⟩ : Fin B))
  · apply sup_le
    · apply Finset.sup_le
      intro n hn
      have hn' : n < a := mem_range.mp hn
      exact Finset.le_sup (f := g) (mem_range.mpr (by omega))
    · apply Finset.sup_le
      intro r _
      exact Finset.le_sup (f := g) (mem_range.mpr (by have := r.isLt; omega))

/-- A supremum over Fin N of a sequence read at the index's value is the supremum over the naturals below N. -/
theorem sup_univ_eq_sup_range (g : ℕ → EReal) (N : ℕ) :
    univ.sup (fun i : Fin N => g i.val) = (range N).sup g := by
  apply le_antisymm
  · exact Finset.sup_le fun i _ => Finset.le_sup (f := g) (mem_range.mpr i.isLt)
  · exact Finset.sup_le fun n hn =>
      Finset.le_sup (f := fun i : Fin N => g i.val) (mem_univ (⟨n, mem_range.mp hn⟩ : Fin N))

/-- A finite nonempty supremum of real numbers is a real number. -/
theorem sup_range_real (g : ℕ → EReal) (N : ℕ) (hN : 0 < N) (hg : ∀ n < N, ∃ r : ℝ, g n = (r : EReal)) :
    ∃ m : ℝ, (range N).sup g = (m : EReal) := by
  obtain ⟨i, hi, h⟩ := Finset.exists_mem_eq_sup (range N) ⟨0, mem_range.mpr hN⟩ g
  obtain ⟨r, hr⟩ := hg i (mem_range.mp hi)
  exact ⟨r, h.trans hr⟩

/-- exp (x − m) · exp (m − m') = exp (x − m') for real m, m' and any extended real x. -/
theorem exp_sub_mul_exp_sub (x : EReal) (m m' : ℝ) :
    Ideal.exp (x - (m : EReal)) * Ideal.exp ((m : EReal) - (m' : EReal)) = Ideal.exp (x - (m' : EReal)) := by
  induction x using EReal.rec with
  | bot => rw [EReal.bot_sub, EReal.bot_sub, Ideal.exp_bot, zero_mul]
  | coe x =>
    rw [← EReal.coe_sub, ← EReal.coe_sub, ← EReal.coe_sub, Ideal.exp_coe, Ideal.exp_coe, Ideal.exp_coe,
      ← EReal.coe_mul, ← Real.exp_add]
    congr 2
    ring
  | top =>
    rw [EReal.top_sub_coe, EReal.top_sub_coe, Ideal.exp_top, ← EReal.coe_sub, Ideal.exp_coe,
      EReal.top_mul_coe_of_pos (Real.exp_pos _)]

/-- A nonnegative real factor distributes over a finite sum of extended reals. -/
theorem sum_mul_coe_of_nonneg {ι : Type*} (t : Finset ι) (a : ι → EReal) (c : ℝ) (hc : 0 ≤ c) :
    (∑ n ∈ t, a n) * (c : EReal) = ∑ n ∈ t, a n * (c : EReal) := by
  classical
  induction t using Finset.induction_on with
  | empty => simp
  | insert i t hi ih =>
    rw [Finset.sum_insert hi, Finset.sum_insert hi,
      EReal.right_distrib_of_nonneg_of_ne_top (EReal.coe_nonneg.mpr hc) (EReal.coe_ne_top c), ih]

/-- The sum of w n · exp (g n − m), brought from the real maximum m to the real maximum m'. -/
theorem sum_rescale_exp {ι : Type*} (t : Finset ι) (g w : ι → EReal) (m m' : ℝ) :
    (∑ n ∈ t, w n * Ideal.exp (g n - (m : EReal))) * Ideal.exp ((m : EReal) - (m' : EReal))
      = ∑ n ∈ t, w n * Ideal.exp (g n - (m' : EReal)) := by
  rw [← EReal.coe_sub, Ideal.exp_coe, sum_mul_coe_of_nonneg t _ _ (Real.exp_pos _).le]
  refine Finset.sum_congr rfl fun n _ => ?_
  rw [mul_assoc, ← Ideal.exp_coe, EReal.coe_sub, exp_sub_mul_exp_sub]

/-- After s blocks the recurrence holds the supremum and the weighted sum of exponentials of the entries below
    s · B, provided those entries of g are real numbers. -/
theorem colRun_eq_range (B : ℕ) (hB : 0 < B) (g w : ℕ → EReal) (s : ℕ)
    (hg : ∀ n < s * B, ∃ r : ℝ, g n = (r : EReal)) :
    colRun B g w s
      = ((range (s * B)).sup g, ∑ n ∈ range (s * B), w n * Ideal.exp (g n - (range (s * B)).sup g)) := by
  induction s with
  | zero => simp [colRun]
  | succ s ih =>
    have hle : s * B ≤ (s + 1) * B := Nat.mul_le_mul_right B (Nat.le_succ s)
    have ih' := ih fun n hn => hg n (lt_of_lt_of_le hn hle)
    have hM : max ((range (s * B)).sup g) (univ.sup fun r : Fin B => g (s * B + r.val))
        = (range ((s + 1) * B)).sup g := by
      rw [Nat.succ_mul, sup_range_add]
    show (let p := colRun B g w s
          let M' := max p.1 (univ.sup fun r : Fin B => g (s * B + r.val))
          (M', p.2 * Ideal.exp (p.1 - M') + ∑ r : Fin B, w (s * B + r.val) * Ideal.exp (g (s * B + r.val) - M'))) = _
    rw [ih']
    simp only []
    rw [hM]
    refine Prod.ext rfl ?_
    show (∑ n ∈ range (s * B), w n * Ideal.exp (g n - (range (s * B)).sup g))
          * Ideal.exp ((range (s * B)).sup g - (range ((s + 1) * B)).sup g)
        + ∑ r : Fin B, w (s * B + r.val) * Ideal.exp (g (s * B + r.val) - (range ((s + 1) * B)).sup g)
        = ∑ n ∈ range ((s + 1) * B), w n * Ideal.exp (g n - (range ((s + 1) * B)).sup g)
    obtain ⟨m', hm'⟩ := sup_range_real g ((s + 1) * B) (Nat.mul_pos (Nat.succ_pos s) hB) hg
    rw [hm']
    have hsplit : ∑ n ∈ range ((s + 1) * B), w n * Ideal.exp (g n - (m' : EReal))
        = ∑ n ∈ range (s * B), w n * Ideal.exp (g n - (m' : EReal))
          + ∑ r : Fin B, w (s * B + r.val) * Ideal.exp (g (s * B + r.val) - (m' : EReal)) := by
      rw [Nat.succ_mul, Finset.sum_range_add]
      congr 1
      exact Finset.sum_range fun x => w (s * B + x) * Ideal.exp (g (s * B + x) - (m' : EReal))
    rw [hsplit]
    congr 1
    rcases Nat.eq_zero_or_pos s with hs | hs
    · subst hs
      simp
    · obtain ⟨m, hm⟩ := sup_range_real g (s * B) (Nat.mul_pos hs hB)
        (fun n hn => hg n (lt_of_lt_of_le hn hle))
      rw [hm]
      exact sum_rescale_exp _ g w m m'

/-- The running column statistics after J blocks of B entries are the one-shot maximum and the one-shot weighted sum
    of exponentials over all J · B entries, when those entries of g are real numbers. -/
theorem colRun_eq_oneShot (J B : ℕ) (hB : 0 < B) (g w : ℕ → EReal)
    (hg : ∀ n < J * B, ∃ r : ℝ, g n = (r : EReal)) :
    colRun B g w J
      = (univ.sup (fun i : Fin (J * B) => g i.val),
         ∑ i : Fin (J * B), Ideal.exp (g i.val - univ.sup (fun i : Fin (J * B) => g i.val)) * w i.val) := by
  rw [colRun_eq_range B hB g w J hg, sup_univ_eq_sup_range]
  refine Prod.ext rfl ?_
  show ∑ n ∈ range (J * B), w n * Ideal.exp (g n - (range (J * B)).sup g)
      = ∑ i : Fin (J * B), Ideal.exp (g i.val - (range (J * B)).sup g) * w i.val
  rw [Finset.sum_range]
  exact Finset.sum_congr rfl fun i _ => mul_comm _ _

/-- The same with the number of entries named: N = J · B. -/
theorem colRun_eq_oneShot_of_eq (J B N : ℕ) (hN : J * B = N) (hB : 0 < B) (g w : ℕ → EReal)
    (hg : ∀ n < N, ∃ r : ℝ, g n = (r : EReal)) :
    colRun B g w J
      = (univ.sup (fun i : Fin N => g i.val),
         ∑ i : Fin N, Ideal.exp (g i.val - univ.sup (fun i : Fin N => g i.val)) * w i.val) := by
  subst hN
  exact colRun_eq_oneShot J B hB g w hg

/-- Four blocks of 512 entries: the running statistics are the one-shot statistics over the 2048 entries. -/
theorem colRun_four_blocks (g w : ℕ → EReal) (hg : ∀ n < 2048, ∃ r : ℝ, g n = (r : EReal)) :
    colRun 512 g w 4
      = (univ.sup (fun i : Fin 2048 => g i.val),
         ∑ i : Fin 2048, Ideal.exp (g i.val - univ.sup (fun i : Fin 2048 => g i.val)) * w i.val) :=
  colRun_eq_oneShot_of_eq 4 512 2048 (by norm_num) (by norm_num) g w hg

end Idealize.ShloMosaic.RunningSoftmax

end
-- ==== Proof.lean ====
/-
  Dual-axis masked softmax attention with gating: the Pallas kernel against its jnp reference.

  Both programs compute, for a batch b, a query row i and a key column j, the score s(b,i,j) = Σ_d q(b,i,d)·k(b,j,d),
  its masked softmax down the column (over queries) and along the row (over keys), the product g of the two weights,
  and o(b,i,d) = Σ_j g(b,i,j)·v(b,j,d). The reference does this with whole-array operations. The kernel walks the grid
  (batch, phase, query tile): in phase 0 it accumulates each column's maximum and sum of exponentials over the four
  tiles of 512 query rows, rescaling the running sum to the new maximum at each tile; in phase 1 it recomputes the
  tile's scores, takes the row statistics (a row is whole within a tile), and writes the tile's gated weights and
  their product with the values.

  On the extended reals the two agree when the inputs are finite: the rescaled running sum after the fourth tile is the
  one-shot sum, since exp (a − M)·exp (M − M') = exp (a − M') for real maxima and a nonnegative real factor distributes
  over a finite sum; everything else is commutativity of products. The changes of float format the kernel makes are
  the identity there, and the additive constant of the denominators is the same float literal on both sides.

  The frames: each kernel program's run is its body's three control cases (first tile of phase 0, a later tile of phase 0,
  a tile of phase 1) at every grid point, the two scratch rows carried from point to point and the output blocks idle
  in phase 0; the reference's is its run read back. No operation of the kernel is rewritten by the idealization, so
  that claim is trivial.
-/
import proofs.«113338_j73452530696353_1_alg».proof.Defs
import proofs.«113338_j73452530696353_1_alg».proof.Proof.Gen.Kernel
import proofs.«113338_j73452530696353_1_alg».proof.Proof.Gen.KernelIdeal
import proofs.«113338_j73452530696353_1_alg».proof.Proof.Gen.ReferenceIdeal
import proofs.«113338_j73452530696353_1_alg».proof.Proof.Gen.Pre_finite_inputs
import proofs.«113338_j73452530696353_1_alg».proof.Proof.KernelPoints
import proofs.«113338_j73452530696353_1_alg».proof.Proof.KernelIdealValue
import proofs.«113338_j73452530696353_1_alg».proof.Proof.ReferenceIsSpec
import proofs.«113338_j73452530696353_1_alg».proof.Proof.LibRunningSoftmax
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's two arrays of those arguments. -/
theorem algebraic : Cert.algebraic_KernelIdeal_ReferenceIdeal := by
  intro m ρ m' ρ' hpre hagree
  refine ⟨_, _, Cert.KernelIdeal.Result.kernel_run m ρ hpre, ?_⟩
  refine (θ_run Cert.ReferenceIdeal.defs _ _).mono (fun _ h c => ?_) (Cert.ReferenceIdeal.AsSpec.run_is_spec m' ρ')
  obtain ⟨hout, hgate, hargs⟩ := h c
  refine ⟨?_, ?_, hargs⟩
  · rw [hout, (hagree c).1, (hagree c).2.1, (hagree c).2.2.1, (hagree c).2.2.2]
  · rw [hgate, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
